-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64 : Shape := ⟨2, ![512, 64]⟩
abbrev S32768x64 : Shape := ⟨2, ![32768, 64]⟩
abbrev S_ : Shape := ⟨0, ![]⟩

class Facts : Prop where
  bcast_S_S512x64 : S_.BroadcastsInDim S512x64 (![] : Fin 0 → Fin S512x64.rank)
  reducesTo_S512x64_S_d0_1 : S512x64.ReducesTo [0, 1] S_
  h_S_ : 0 < S_.numel
  bcast_S_S32768x64 : S_.BroadcastsInDim S32768x64 (![] : Fin 0 → Fin S32768x64.rank)
  reducesTo_S32768x64_S_d0_1 : S32768x64.ReducesTo [0, 1] S_

variable [Facts]

def fn_part1 {F : FTy → Type} [FloatOps F] (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  main_v18

def fn {F : FTy → Type} [FloatOps F] (main_arg0 : FVec F S512x64 .f32) (main_arg1 : FVec F S32768x64 .f32) (main_arg2 : FVec F S512x64 .f32) (main_arg3 : FVec F S512x64 .f32) : IVec S_ 1 :=
  let main_v0 : FVec F S512x64 .f32 := Host.absf main_arg0
  let main_cst : FVec F S_ .f32 := constant S_ .f32 0x7F800000#32
  let main_v1 : FVec F S512x64 .f32 := broadcastInDim S512x64 ![] bcast_S_S512x64 main_cst
  let main_v2 : IVec S512x64 1 := cmpf .olt main_v0 main_v1
  let main_c : IVec S_ 1 := constantI S_ 1 1#1
  let main_v3 : IVec S_ 1 := (fun x v => Host.reduce IntOp.andi x v reducesTo_S512x64_S_d0_1 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_v13 main_v16
-- ==== Kernel.lean ====
abbrev S512x64 : Shape := ⟨2, ![512, 64]⟩
abbrev S32768x64 : Shape := ⟨2, ![32768, 64]⟩
abbrev S256x64 : Shape := ⟨2, ![256, 64]⟩
abbrev S4096x64 : Shape := ⟨2, ![4096, 64]⟩
abbrev S256x1 : Shape := ⟨2, ![256, 1]⟩
abbrev S256x4096 : Shape := ⟨2, ![256, 4096]⟩
abbrev S256 : Shape := ⟨1, ![256]⟩
abbrev S_ : Shape := ⟨0, ![]⟩
abbrev S64 : Shape := ⟨1, ![64]⟩

abbrev nBuf : Space → Nat
  | .hbm => 13
  | .vmem => 15
  | .smem => 0
  | _ => 0

abbrev bufTy : (tb : Table) → Fin (tcTables nBuf tb) → BufTy
  | .hbm, ⟨0, _⟩ => ⟨S512x64, .f32⟩
  | .hbm, ⟨1, _⟩ => ⟨S32768x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .local _ .vmem, ⟨0, _⟩ => ⟨S256x64, .f32⟩
  | .local _ .vmem, ⟨1, _⟩ => ⟨S256x64, .f32⟩
  | .local _ .vmem, ⟨2, _⟩ => ⟨S4096x64, .f32⟩
  | .local _ .vmem, ⟨3, _⟩ => ⟨S4096x64, .f32⟩
  | .local _ .vmem, ⟨4, _⟩ => ⟨S256x64, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S256x64, .f32⟩
  | .local _ .vmem, ⟨12, _⟩ => ⟨S256x1, .f32⟩
  | .local _ .vmem, ⟨13, _⟩ => ⟨S256x1, .f32⟩
  | .local _ .vmem, ⟨14, _⟩ => ⟨S256x64, .f32⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_21 : BitVec 32 := 0#32
  let v40 : BitVec 1 := Scalar.cmpi .ne v39 c0_i32_21
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  bitsLt_bf16_f32 : FTy.bits .bf16 < FTy.bits .f32
  inb_S4096x64_S4096x64_0_0 : ∀ a, (![0, 0] : Fin 2 → Nat) a + S4096x64.size a ≤ S4096x64.size a
  h_S4096x64 : 0 < S4096x64.numel
  reduces_S256x4096_S256 : S256x4096.Reduces [1] S256
  shapeCasts_S256_S256x1 : S256.ShapeCasts S256x1
  broadcasts_S256x1_S256x4096 : S256x1.Broadcasts S256x4096
  broadcasts_S256x1_S256x64 : S256x1.Broadcasts S256x64
  reducesTo_S512x64_S64_d0 : S512x64.ReducesTo [0] S64
  h_S_ : 0 < S_.numel
  bcast_S_S64 : S_.BroadcastsInDim S64 (![] : Fin 0 → Fin S64.rank)
  reducesTo_S64_S_d0 : S64.ReducesTo [0] S_
  dot_S256x64_S4096x64_S256x4096_1_1_0_0_n_n_wf : DotDims.WF S256x64 S4096x64 S256x4096 [1] [1] [0] [0] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S512x64.size a
  hwx0_0 : ∀ i : grid0.Coords, EltTy.bits .f32 = 32 ∨ (Rect.block (s := S512x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S32768x64.size a
  hwx0_1 : ∀ i : grid0.Coords, EltTy.bits .f32 = 32 ∨ (Rect.block (s := S32768x64) S4096x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S512x64.size a
  hwx0_2 : ∀ i : grid0.Coords, EltTy.bits .f32 = 32 ∨ (Rect.block (s := S512x64) S256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S512x64.size a
  hwx0_3 : ∀ i : grid0.Coords, EltTy.bits .f32 = 32 ∨ (Rect.block (s := S512x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S512x64.size a
  hwx0_4 : ∀ i : grid0.Coords, EltTy.bits .f32 = 32 ∨ (Rect.block (s := S512x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S512x64.size a
  hwx0_5 : ∀ i : grid0.Coords, EltTy.bits .f32 = 32 ∨ (Rect.block (s := S512x64) S256x64.size (cc0_transform_5 i) (hinb0_5 i)).WholeWords (EltTy.packing .f32)

variable [Facts₀]

def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x64 : Shape := ⟨2, ![512, 64]⟩
abbrev S32768x64 : Shape := ⟨2, ![32768, 64]⟩
abbrev S32768x512 : Shape := ⟨2, ![32768, 512]⟩
abbrev S_ : Shape := ⟨0, ![]⟩
abbrev S512 : Shape := ⟨1, ![512]⟩
abbrev S1x512 : Shape := ⟨2, ![1, 512]⟩
abbrev S64 : Shape := ⟨1, ![64]⟩

abbrev nBuf : Space → Nat
  | .hbm => 48
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S32768x64, .f32⟩
  | .hbm, ⟨2, _⟩ => ⟨S512x64, .f32⟩
  | .hbm, ⟨3, _⟩ => ⟨S512x64, .f32⟩
  | .hbm, ⟨4, _⟩ => ⟨S32768x512, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S512, .f32⟩
  | .hbm, ⟨10, _⟩ => ⟨S1x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S_, .f32⟩
  | .hbm, ⟨15, _⟩ => ⟨S512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S512x64, .f32⟩
  | .hbm, ⟨20, _⟩ => ⟨S512x64, .f32⟩
  | .hbm, ⟨21, _⟩ => ⟨S_, .f32⟩
  | .hbm, ⟨22, _⟩ => ⟨S_, .f32⟩
  | .hbm, ⟨23, _⟩ => ⟨S512x64, .f32⟩
  | .hbm, ⟨24, _⟩ => ⟨S512x64, .f32⟩
  | .hbm, ⟨25, _⟩ => ⟨S_, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S_, .f32⟩
  | .hbm, ⟨30, _⟩ => ⟨S_, .f32⟩
  | .hbm, ⟨31, _⟩ => ⟨S512x64, .f32⟩
  | .hbm, ⟨32, _⟩ => ⟨S512x64, .f32⟩
  | .hbm, ⟨33, _⟩ => ⟨S512x64, .f32⟩
  | .hbm, ⟨34, _⟩ => ⟨S_, .f32⟩
  | .hbm, ⟨35, _⟩ => ⟨S512x64, .f32⟩
  | .hbm, ⟨36, _⟩ => ⟨S512x64, .f32⟩
  | .hbm, ⟨37, _⟩ => ⟨S512x64, .f32⟩
  | .hbm, ⟨38, _⟩ => ⟨S512x64, .f32⟩
  | .hbm, ⟨39, _⟩ => ⟨S512x64, .f32⟩
  | .hbm, ⟨40, _⟩ => ⟨S512x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S_, .f32⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S32768x512_S512_d0 : S32768x512.ReducesTo [0] S512
  h_S_ : 0 < S_.numel
  bcast_S_S512 : S_.BroadcastsInDim S512 (![] : Fin 0 → Fin S512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S512x64 : S_.BroadcastsInDim S512x64 (![] : Fin 0 → Fin S512x64.rank)
  reducesTo_S512x64_S64_d0 : S512x64.ReducesTo [0] S64
  bcast_S_S64 : S_.BroadcastsInDim S64 (![] : Fin 0 → Fin S64.rank)
  reducesTo_S64_S_d0 : S64.ReducesTo [0] S_
  dot_S32768x64_S512x64_S32768x512_1_1_0_0_n_n_wf : DotDims.WF S32768x64 S512x64 S32768x512 [1] [1] [0] [0] [] []
  dot_S32768x512_S32768x64_S512x64_0_0_1_1_n_n_wf : DotDims.WF S32768x512 S32768x64 S512x64 [0] [0] [1] [1] [] []

variable [Facts₀]

def dot_S32768x64_S512x64_S32768x512_1_1_0_0_n_n : DotDims S32768x64 S512x64 S32768x512 where
  lhsContracting := [1]
  rhsContracting := [1]
  lhsNonContracting := [0]
  rhsNonContracting := [0]
  lhsBatch := []
  rhsBatch := []
  wf := dot_S32768x64_S512x64_S32768x512_1_1_0_0_n_n_wf
def dot_S32768x512_S32768x64_S512x64_0_0_1_1_n_n : DotDims S32768x512 S32768x64 S512x64 where
  lhsContracting := [0]
  rhsContracting := [0]
  lhsNonContracting := [1]
  rhsNonContracting := [1]
  lhsBatch := []
  rhsBatch := []
  wf := dot_S32768x512_S32768x64_S512x64_0_0_1_1_n_n_wf

class Facts : Prop extends Facts₀ where

variable [Facts]
-- ==== Proof.Pieces.lean ====
/-
  What one grid point leaves in the three carried buffers and, at the last state tile, in the two output blocks, as
  values of the point's input blocks and of what the carried buffers held before.

  The body keeps, per batch row, a running maximum `m`, a running normaliser `l` and a running weighted sum `acc`.
  At a point that is neither the first nor the last state tile of its batch tile the three are replaced by their
  updates from the block of `f` and the tile of `S`.  At the first state tile the three are first reset (to -inf, 0, 0)
  and then updated, so the update is taken from the reset values.  At the last state tile the update is followed by
  the two stores of the quotient `acc / l` and of the cross-entropy entries computed from it.
  Every store covers its whole buffer, so what a buffer holds afterwards is the last value stored, and every load
  reads a whole buffer.  All of this holds for any reading of the float operations.
-/
import proofs.«176089_j7017976562214_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## A middle state tile -/

/-- A middle tile leaves the updated running maximum. -/
theorem mid_max (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : ¬cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_B_0 c i a2 h2 a3 h3 a4 h4 a5 h5 a6 h6 a7 h7 a8 h8 a9 h9 a10 h10 hc0 hc1 x0 x1 x2 x3 xs0 xs1 xs2 = k0_pay2 (k0_pay10 x0 x1 xs0) := by
  unfold sout0_B_0
  rw [View.read_writes_eq_canon _ _ _ (scover0_B_0 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- A middle tile leaves the updated running normaliser. -/
theorem mid_norm (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : ¬cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_B_1 c i a2 h2 a3 h3 a4 h4 a5 h5 a6 h6 a7 h7 a8 h8 a9 h9 a10 h10 hc0 hc1 x0 x1 x2 x3 xs0 xs1 xs2 = k0_pay13 x0 x1 xs0 xs0 xs1 := by
  unfold sout0_B_1
  rw [View.read_writes_eq_canon _ _ _ (scover0_B_1 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- A middle tile leaves the updated running weighted sum. -/
theorem mid_acc (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : ¬cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_B_2 c i a2 h2 a3 h3 a4 h4 a5 h5 a6 h6 a7 h7 a8 h8 a9 h9 a10 h10 hc0 hc1 x0 x1 x2 x3 xs0 xs1 xs2 = k0_pay1 (k0_pay14 x0 x1 xs0 xs0 xs2) := by
  unfold sout0_B_2
  rw [View.read_writes_eq_canon _ _ _ (scover0_B_2 c i a2 h2 a3 h3 a4 h4 a5 h5 a6 h6 a7 h7 a8 h8 a9 h9 a10 h10 hc0 hc1 x0 x1 x2 x3 xs0 xs1 xs2)]
  unfold kernelRun0_B
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-! ## The last state tile -/

/-- The last tile leaves the updated running maximum. -/
theorem last_max (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_C_0 c i a2 h2 a3 h3 a4 h4 a5 h5 a6 h6 a7 h7 a8 h8 a9 h9 a10 h10 hc0 hc1 x0 x1 x2 x3 xs0 xs1 xs2 = k0_pay2 (k0_pay10 x0 x1 xs0) := by
  unfold sout0_C_0
  rw [View.read_writes_eq_canon _ _ _ (scover0_C_0 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The last tile leaves the updated running normaliser. -/
theorem last_norm (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_C_1 c i a2 h2 a3 h3 a4 h4 a5 h5 a6 h6 a7 h7 a8 h8 a9 h9 a10 h10 hc0 hc1 x0 x1 x2 x3 xs0 xs1 xs2 = k0_pay13 x0 x1 xs0 xs0 xs1 := by
  unfold sout0_C_1
  rw [View.read_writes_eq_canon _ _ _ (scover0_C_1 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The last tile leaves the updated running weighted sum. -/
theorem last_acc (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    sout0_C_2 c i a2 h2 a3 h3 a4 h4 a5 h5 a6 h6 a7 h7 a8 h8 a9 h9 a10 h10 hc0 hc1 x0 x1 x2 x3 xs0 xs1 xs2 = k0_pay1 (k0_pay14 x0 x1 xs0 xs0 xs2) := by
  unfold sout0_C_2
  rw [View.read_writes_eq_canon _ _ _ (scover0_C_2 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The last tile stores, in the first output block, the quotient of the updated weighted sum by the updated normaliser. -/
theorem last_margin (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    out0_C_4 c i a2 h2 a3 h3 a4 h4 a5 h5 a6 h6 a7 h7 a8 h8 a9 h9 a10 h10 hc0 hc1 x0 x1 x2 x3 xs0 xs1 xs2 = k0_pay3 (k0_pay1 (k0_pay14 x0 x1 xs0 xs0 xs2)) (k0_pay13 x0 x1 xs0 xs0 xs1) := by
  unfold out0_C_4
  rw [View.read_writes_eq_canon _ _ _ (cover0_C_4 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The last tile stores, in the second output block, the cross-entropy entries of that quotient with the label and mask blocks. -/
theorem last_entries (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : ¬cond0_0 i) (hc1 : cond0_1 i)
    (x0 : Vec F S256x64 .f32) (x1 : Vec F S4096x64 .f32) (x2 : Vec F S256x64 .f32) (x3 : Vec F S256x64 .f32) (xs0 : Vec F S256x1 .f32) (xs1 : Vec F S256x1 .f32) (xs2 : Vec F S256x64 .f32) :
    out0_C_5 c i a2 h2 a3 h3 a4 h4 a5 h5 a6 h6 a7 h7 a8 h8 a9 h9 a10 h10 hc0 hc1 x0 x1 x2 x3 xs0 xs1 xs2 = k0_pay4 (k0_pay1 (k0_pay14 x0 x1 xs0 xs0 xs2)) (k0_pay13 x0 x1 xs0 xs0 xs1) x2 x3 := by
  unfold out0_C_5
  rw [View.read_writes_eq_canon _ _ _ (cover0_C_5 c i a2 h2 a3 h3 a4 h4 a5 h5 a6 h6 a7 h7 a8 h8 a9 h9 a10 h10 hc0 hc1 x0 x1 x2 x3 xs0 xs1 xs2)]
  unfold kernelRun0_C
  dsimp only
  sl_unfold_words
  rw [View.canon_unit_zero hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-! ## The first state tile -/

/-- The first tile leaves the running maximum updated from the reset value. -/
theorem first_max (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : cond0_0 i) (hc1 : ¬cond0_1 i)
    (x0 : Vec F S256x64 .f32) (x1 : Vec F S4096x64 .f32) (x2 : Vec F S256x64 .f32) (x3 : Vec F S256x64 .f32) :
    sout0_A_0 c i a2 h2 a3 h3 a4 h4 a5 h5 a6 h6 a7 h7 a8 h8 a9 h9 a10 h10 hc0 hc1 x0 x1 x2 x3 = k0_pay2 (k0_pay10 x0 x1 (k0_pay5 (F := F))) := by
  unfold sout0_A_0
  rw [View.read_writes_eq_canon _ _ _ (scover0_A_0 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S256x1) hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The first tile leaves the running normaliser updated from the reset values. -/
theorem first_norm (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : cond0_0 i) (hc1 : ¬cond0_1 i)
    (x0 : Vec F S256x64 .f32) (x1 : Vec F S4096x64 .f32) (x2 : Vec F S256x64 .f32) (x3 : Vec F S256x64 .f32) :
    sout0_A_1 c i a2 h2 a3 h3 a4 h4 a5 h5 a6 h6 a7 h7 a8 h8 a9 h9 a10 h10 hc0 hc1 x0 x1 x2 x3 = k0_pay13 x0 x1 (k0_pay5 (F := F)) (k0_pay5 (F := F)) (k0_pay6 (F := F)) := by
  unfold sout0_A_1
  rw [View.read_writes_eq_canon _ _ _ (scover0_A_1 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S256x1) hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

/-- The first tile leaves the running weighted sum updated from the reset values. -/
theorem first_acc (c : Dev nD) (i : grid0.Coords) (a2 : Memref sig .tc .vmem S256x64 .f32) (h2 : a2.IsWhole) (a3 : Memref sig .tc .vmem S4096x64 .f32) (h3 : a3.IsWhole) (a4 : Memref sig .tc .vmem S256x64 .f32) (h4 : a4.IsWhole) (a5 : Memref sig .tc .vmem S256x64 .f32) (h5 : a5.IsWhole) (a6 : Memref sig .tc .vmem S256x64 .f32) (h6 : a6.IsWhole) (a7 : Memref sig .tc .vmem S256x64 .f32) (h7 : a7.IsWhole) (a8 : Memref sig .tc .vmem S256x1 .f32) (h8 : a8.IsWhole) (a9 : Memref sig .tc .vmem S256x1 .f32) (h9 : a9.IsWhole) (a10 : Memref sig .tc .vmem S256x64 .f32) (h10 : a10.IsWhole) (hc0 : cond0_0 i) (hc1 : ¬cond0_1 i)
    (x0 : Vec F S256x64 .f32) (x1 : Vec F S4096x64 .f32) (x2 : Vec F S256x64 .f32) (x3 : Vec F S256x64 .f32) :
    sout0_A_2 c i a2 h2 a3 h3 a4 h4 a5 h5 a6 h6 a7 h7 a8 h8 a9 h9 a10 h10 hc0 hc1 x0 x1 x2 x3 = k0_pay1 (k0_pay14 x0 x1 (k0_pay5 (F := F)) (k0_pay5 (F := F)) (k0_pay7 (F := F))) := by
  unfold sout0_A_2
  rw [View.read_writes_eq_canon _ _ _ (scover0_A_2 c i a2 h2 a3 h3 a4 h4 a5 h5 a6 h6 a7 h7 a8 h8 a9 h9 a10 h10 hc0 hc1 x0 x1 x2 x3)]
  unfold kernelRun0_A
  dsimp only
  sl_unfold_words
  rw [View.canon_cons_unit_zero (S := S256x64) hz]
  simp only [View.readAt_eq_ld, h2.read_unread, h3.read_unread, h4.read_unread, h5.read_unread, h8.read_unread, h9.read_unread, h10.read_unread, View.ld_unit_zero (S := S256x64) hz, View.ld_unit_zero (S := S4096x64) hz, View.ld_unit_zero (S := S256x1) hz, View.readCov_unit_zero (S := S256x64) _ hz, View.readCov_unit_zero (S := S256x1) _ hz]

end Cert.KernelIdeal.Pieces

end
-- ==== Proof.Carried.lean ====
/-
  What the carried buffers and the output blocks hold after each grid point, as values of the point's blocks and of
  what the point before left: the three kinds of points (first, middle and last state tile of a batch tile) one by one.
  For any reading of the float operations.
-/
import proofs.«176089_j7017976562214_2_alg».proof.Proof.Pieces

set_option maxRecDepth 16384

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-! ## At the first state tile of a batch tile: from the reset values -/

/-- The running maximum after a first tile. -/
theorem max_first (c : Dev nD) (t : Fin cfg0.N) (h0 : t.val % 8 = 0) (h1 : ¬t.val % 8 = 7) :
    (outsAt0 m c t.val t.isLt).2.2.1 = k0_pay2 (k0_pay10 (iblk m c 0 t) (iblk m c 1 t) (k0_pay5 (F := F))) := by
  rw [outsAt0_A m c t h0 h1]
  exact first_max (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- The running normaliser after a first tile. -/
theorem norm_first (c : Dev nD) (t : Fin cfg0.N) (h0 : t.val % 8 = 0) (h1 : ¬t.val % 8 = 7) :
    (outsAt0 m c t.val t.isLt).2.2.2.1 = k0_pay13 (iblk m c 0 t) (iblk m c 1 t) (k0_pay5 (F := F)) (k0_pay5 (F := F)) (k0_pay6 (F := F)) := by
  rw [outsAt0_A m c t h0 h1]
  exact first_norm (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-- The running weighted sum after a first tile. -/
theorem acc_first (c : Dev nD) (t : Fin cfg0.N) (h0 : t.val % 8 = 0) (h1 : ¬t.val % 8 = 7) :
    (outsAt0 m c t.val t.isLt).2.2.2.2 = k0_pay1 (k0_pay14 (iblk m c 0 t) (iblk m c 1 t) (k0_pay5 (F := F)) (k0_pay5 (F := F)) (k0_pay7 (F := F))) := by
  rw [outsAt0_A m c t h0 h1]
  exact first_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)

/-! ## At a middle state tile: from what the point before left -/

/-- The running maximum after a middle tile. -/
theorem max_mid (c : Dev nD) (t : Fin cfg0.N) (h0 : ¬t.val % 8 = 0) (h1 : ¬t.val % 8 = 7) :
    (outsAt0 m c t.val t.isLt).2.2.1 = k0_pay2 (k0_pay10 (iblk m c 0 t) (iblk m c 1 t) (outsAt0 m c (t.val - 1) (Nat.lt_of_le_of_lt (Nat.sub_le _ _) t.isLt)).2.2.1) := by
  rw [outsAt0_B m c t h0 h1]
  exact mid_max (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The running normaliser after a middle tile. -/
theorem norm_mid (c : Dev nD) (t : Fin cfg0.N) (h0 : ¬t.val % 8 = 0) (h1 : ¬t.val % 8 = 7) :
    (outsAt0 m c t.val t.isLt).2.2.2.1 = k0_pay13 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_B m c t h0 h1]
  exact mid_norm (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The running weighted sum after a middle tile. -/
theorem acc_mid (c : Dev nD) (t : Fin cfg0.N) (h0 : ¬t.val % 8 = 0) (h1 : ¬t.val % 8 = 7) :
    (outsAt0 m c t.val t.isLt).2.2.2.2 = k0_pay1 (k0_pay14 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  rw [outsAt0_B m c t h0 h1]
  exact mid_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-! ## At the last state tile: the same update, and the two output blocks -/

/-- The running maximum after a last tile. -/
theorem max_last (c : Dev nD) (t : Fin cfg0.N) (h0 : ¬t.val % 8 = 0) (h1 : t.val % 8 = 7) :
    (outsAt0 m c t.val t.isLt).2.2.1 = k0_pay2 (k0_pay10 (iblk m c 0 t) (iblk m c 1 t) (outsAt0 m c (t.val - 1) (Nat.lt_of_le_of_lt (Nat.sub_le _ _) t.isLt)).2.2.1) := by
  rw [outsAt0_C m c t h0 h1]
  exact last_max (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The running normaliser after a last tile. -/
theorem norm_last (c : Dev nD) (t : Fin cfg0.N) (h0 : ¬t.val % 8 = 0) (h1 : t.val % 8 = 7) :
    (outsAt0 m c t.val t.isLt).2.2.2.1 = k0_pay13 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.1 := by
  rw [outsAt0_C m c t h0 h1]
  exact last_norm (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The running weighted sum after a last tile. -/
theorem acc_last (c : Dev nD) (t : Fin cfg0.N) (h0 : ¬t.val % 8 = 0) (h1 : t.val % 8 = 7) :
    (outsAt0 m c t.val t.isLt).2.2.2.2 = k0_pay1 (k0_pay14 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.2) := by
  rw [outsAt0_C m c t h0 h1]
  exact last_acc (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The first output block after a last tile: the quotient of the updated weighted sum by the updated normaliser. -/
theorem margin_last (c : Dev nD) (t : Fin cfg0.N) (h0 : ¬t.val % 8 = 0) (h1 : t.val % 8 = 7) :
    (outsAt0 m c t.val t.isLt).1 = k0_pay3 (k0_pay1 (k0_pay14 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.2)) (k0_pay13 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.1) := by
  rw [outsAt0_C m c t h0 h1]
  exact last_margin (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The second output block after a last tile: the cross-entropy entries of that quotient. -/
theorem entries_last (c : Dev nD) (t : Fin cfg0.N) (h0 : ¬t.val % 8 = 0) (h1 : t.val % 8 = 7) :
    (outsAt0 m c t.val t.isLt).2.1 = k0_pay4 (k0_pay1 (k0_pay14 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.2)) (k0_pay13 (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.1 (outsAt0 m c (t.val - 1) (Nat.lt_of_le_of_lt (Nat.sub_le _ _) t.isLt)).2.2.2.1) (iblk m c 2 t) (iblk m c 3 t) := by
  rw [outsAt0_C m c t h0 h1]
  exact last_entries (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2

/-- The first output block after a last tile, in terms of what the same point leaves in the carried buffers. -/
theorem margin_of_carried (c : Dev nD) (t : Fin cfg0.N) (h0 : ¬t.val % 8 = 0) (h1 : t.val % 8 = 7) :
    (outsAt0 m c t.val t.isLt).1 = k0_pay3 (outsAt0 m c t.val t.isLt).2.2.2.2 (outsAt0 m c t.val t.isLt).2.2.2.1 :=
  (margin_last m c t h0 h1).trans (congrArg₂ k0_pay3 (acc_last m c t h0 h1).symm (norm_last m c t h0 h1).symm)

/-- The second output block after a last tile, in terms of what the same point leaves in the carried buffers. -/
theorem entries_of_carried (c : Dev nD) (t : Fin cfg0.N) (h0 : ¬t.val % 8 = 0) (h1 : t.val % 8 = 7) :
    (outsAt0 m c t.val t.isLt).2.1 = k0_pay4 (outsAt0 m c t.val t.isLt).2.2.2.2 (outsAt0 m c t.val t.isLt).2.2.2.1 (iblk m c 2 t) (iblk m c 3 t) :=
  (entries_last m c t h0 h1).trans
    (congrArg₂ (fun a l => k0_pay4 a l (iblk m c 2 t) (iblk m c 3 t)) (acc_last m c t h0 h1).symm (norm_last m c t h0 h1).symm)

end Cert.KernelIdeal.Carried

end
-- ==== Proof.Spec.lean ====
/-
  The result of both programs as functions of the four argument arrays, index by index, on the extended reals.

  Row `b` of `f` scores every state `s` by the inner product `⟨f b, S s⟩`.  The softmax of those scores over the
  32768 states weights the rows of `S`; the weighted sum of column `i` is the margin of label `i` for batch row `b`.
  Each margin `p`, with its label `y` and mask `w`, gives the masked binary cross entropy
  `-(y · max(-100, log p) + (1 - y) · max(-100, log (1 - p))) · w`.
  (The loss is then the sum over the labels of the batch means of these entries; both programs compute it from the
  array of entries by the same operations, so it needs no formula of its own here.)
-/
import Idealize.ShloMosaic.PureOps.Ideal
import Idealize.ShloMosaic.Lib.ValueIdx

noncomputable section

namespace Cert.Spec

open Idealize.ShloMosaic Idealize.ShloMosaic.ValueIdx
open scoped BigOperators

/-- The batch-by-label shape of `f`, `y`, the mask and both array results. -/
abbrev Sf : Shape := ⟨2, ![512, 64]⟩
/-- The state-by-label shape of `S`. -/
abbrev Ss : Shape := ⟨2, ![32768, 64]⟩

/-- The score of state `s` for batch row `b`: the inner product of row `b` of `f` with row `s` of `S`. -/
def score (f : Sf.Idx → EReal) (S : Ss.Idx → EReal) (b : Fin 512) (s : Fin 32768) : EReal :=
  ∑ i : Fin 64, f (ix2 b i) * S (ix2 s i)

/-- The largest score of batch row `b`. -/
def top (f : Sf.Idx → EReal) (S : Ss.Idx → EReal) (b : Fin 512) : EReal :=
  (Finset.univ : Finset (Fin 32768)).sup (score f S b)

/-- The softmax normaliser of batch row `b`: the sum over the states of `exp (score - top)`. -/
def norm (f : Sf.Idx → EReal) (S : Ss.Idx → EReal) (b : Fin 512) : EReal :=
  ∑ s : Fin 32768, Ideal.exp (score f S b s - top f S b)

/-- The margins: entry `(b, i)` is the softmax-weighted sum over the states of column `i` of `S`. -/
def margin (f : Sf.Idx → EReal) (S : Ss.Idx → EReal) : Sf.Idx → EReal := fun x =>
  ∑ s : Fin 32768, Ideal.div (Ideal.exp (score f S (x 0) s - top f S (x 0))) (norm f S (x 0)) * S (ix2 s (x 1))

/-- One entry of the masked binary cross entropy, from a margin `p`, a label `y` and a mask `w`;
    the two floors are the f32 word of -100 and the unit is the f32 word of 1. -/
def bce (p y w : EReal) : EReal :=
  -(y * max (Ideal.ofBits .f32 0xC2C80000#32) (Ideal.log p)
      + (Ideal.ofBits .f32 0x3F800000#32 - y) * max (Ideal.ofBits .f32 0xC2C80000#32) (Ideal.log (Ideal.ofBits .f32 0x3F800000#32 - p))) * w

/-- The array of cross-entropy entries of an array of margins `P` with labels `y` and mask `w`. -/
def bceArr (P y w : Sf.Idx → EReal) : Sf.Idx → EReal := fun x => bce (P x) (y x) (w x)

/-- State number `k + 4096 * j`: entry `k` of the `j`-th of eight consecutive tiles of 4096 states. -/
def tile (j : Fin 8) (k : Fin 4096) : Fin 32768 := ⟨k.val + 4096 * j.val, by have := j.isLt; have := k.isLt; omega⟩

end Cert.Spec

end
-- ==== Proof.Blocks.lean ====
/-
  The grid and the blocks of the arrays.

  The sixteen grid points are numbered `t = 8 * bi + kv`: `bi` is the batch tile (two tiles of 256 rows), `kv` the
  state tile (eight tiles of 4096 states).  At point `t` the block of `f`, of the labels, of the mask and of both
  results is rows `256 * (t / 8) …` of its array, and the block of `S` is its tile number `t % 8`: entry `k` of
  that tile is state `k + 4096 * (t % 8)`.
-/
import proofs.«176089_j7017976562214_2_alg».proof.Proof.Gen.KernelIdeal.Frame
import proofs.«176089_j7017976562214_2_alg».proof.Proof.Spec
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- There are sixteen points. -/
theorem lt16 (t : Fin cfg0.N) : t.val < 16 := lt_of_lt_of_eq t.isLt (show cfg0.N = 16 from N_0)

/-- The row blocks of `f` follow the batch tile. -/
theorem idx0 : ∀ t : Fin cfg0.N, win0_0.index t 0 = t.val / 8 ∧ win0_0.index t 1 = 0 :=
  (by decide +kernel : ∀ t : Fin grid0.N, win0_0.index t 0 = t.val / 8 ∧ win0_0.index t 1 = 0)
/-- The tiles of `S` follow the state tile. -/
theorem idx1 : ∀ t : Fin cfg0.N, win0_1.index t 0 = t.val % 8 ∧ win0_1.index t 1 = 0 :=
  (by decide +kernel : ∀ t : Fin grid0.N, win0_1.index t 0 = t.val % 8 ∧ win0_1.index t 1 = 0)
/-- The row blocks of the labels follow the batch tile. -/
theorem idx2 : ∀ t : Fin cfg0.N, win0_2.index t 0 = t.val / 8 ∧ win0_2.index t 1 = 0 :=
  (by decide +kernel : ∀ t : Fin grid0.N, win0_2.index t 0 = t.val / 8 ∧ win0_2.index t 1 = 0)
/-- The row blocks of the mask follow the batch tile. -/
theorem idx3 : ∀ t : Fin cfg0.N, win0_3.index t 0 = t.val / 8 ∧ win0_3.index t 1 = 0 :=
  (by decide +kernel : ∀ t : Fin grid0.N, win0_3.index t 0 = t.val / 8 ∧ win0_3.index t 1 = 0)
/-- The row blocks of the margins follow the batch tile. -/
theorem idx4 : ∀ t : Fin cfg0.N, win0_4.index t 0 = t.val / 8 ∧ win0_4.index t 1 = 0 :=
  (by decide +kernel : ∀ t : Fin grid0.N, win0_4.index t 0 = t.val / 8 ∧ win0_4.index t 1 = 0)
/-- The row blocks of the cross-entropy entries follow the batch tile. -/
theorem idx5 : ∀ t : Fin cfg0.N, win0_5.index t 0 = t.val / 8 ∧ win0_5.index t 1 = 0 :=
  (by decide +kernel : ∀ t : Fin grid0.N, win0_5.index t 0 = t.val / 8 ∧ win0_5.index t 1 = 0)

/-- Row `r` of the block of point `t` is row `256 * (t / 8) + r` of the array. -/
def row (t : Fin cfg0.N) (r : Fin 256) : Fin 512 :=
  ⟨256 * (t.val / 8) + r.val, by have := lt16 t; have := r.isLt; omega⟩

/-- The state tile of point `t`. -/
def kv (t : Fin cfg0.N) : Fin 8 := ⟨t.val % 8, Nat.mod_lt _ (by norm_num)⟩

/-- The block of `f` at a point, read in the array. -/
theorem fblk (c : Dev nD) (t : Fin cfg0.N) (r : Fin 256) (q : Fin 64) :
    (iblk m c 0 t : Vec F S256x64 .f32) (ix2 r q) = V m c main_arg0 (ix2 (row t r) q) := by
  unfold iblk
  rw [View.read_apply]
  show V m c main_arg0 (((cfg0.win 0).blk t).view.emb (ix2 r q)) = V m c main_arg0 (ix2 (row t r) q)
  refine congrArg (V m c main_arg0) ?_
  funext a
  apply Fin.ext
  match a with
  | ⟨0, _⟩ =>
    show win0_0.index t 0 * 256 + 1 * r.val = 256 * (t.val / 8) + r.val
    rw [(idx0 t).1]; omega
  | ⟨1, _⟩ =>
    show win0_0.index t 1 * 64 + 1 * q.val = q.val
    rw [(idx0 t).2]; omega

/-- The tile of `S` at a point, read in the array. -/
theorem sblk (c : Dev nD) (t : Fin cfg0.N) (k : Fin 4096) (q : Fin 64) :
    (iblk m c 1 t : Vec F S4096x64 .f32) (ix2 k q) = V m c main_arg1 (ix2 (Cert.Spec.tile (kv t) k) q) := by
  unfold iblk
  rw [View.read_apply]
  show V m c main_arg1 (((cfg0.win 1).blk t).view.emb (ix2 k q)) = V m c main_arg1 _
  refine congrArg (V m c main_arg1) ?_
  funext a
  apply Fin.ext
  match a with
  | ⟨0, _⟩ =>
    show win0_1.index t 0 * 4096 + 1 * k.val = k.val + 4096 * (t.val % 8)
    rw [(idx1 t).1]; omega
  | ⟨1, _⟩ =>
    show win0_1.index t 1 * 64 + 1 * q.val = q.val
    rw [(idx1 t).2]; omega

/-- The block of the labels at a point, read in the array. -/
theorem yblk (c : Dev nD) (t : Fin cfg0.N) (r : Fin 256) (q : Fin 64) :
    (iblk m c 2 t : Vec F S256x64 .f32) (ix2 r q) = V m c main_arg2 (ix2 (row t r) q) := by
  unfold iblk
  rw [View.read_apply]
  show V m c main_arg2 (((cfg0.win 2).blk t).view.emb (ix2 r q)) = V m c main_arg2 (ix2 (row t r) q)
  refine congrArg (V m c main_arg2) ?_
  funext a
  apply Fin.ext
  match a with
  | ⟨0, _⟩ =>
    show win0_2.index t 0 * 256 + 1 * r.val = 256 * (t.val / 8) + r.val
    rw [(idx2 t).1]; omega
  | ⟨1, _⟩ =>
    show win0_2.index t 1 * 64 + 1 * q.val = q.val
    rw [(idx2 t).2]; omega

/-- The block of the mask at a point, read in the array. -/
theorem wblk (c : Dev nD) (t : Fin cfg0.N) (r : Fin 256) (q : Fin 64) :
    (iblk m c 3 t : Vec F S256x64 .f32) (ix2 r q) = V m c main_arg3 (ix2 (row t r) q) := by
  unfold iblk
  rw [View.read_apply]
  show V m c main_arg3 (((cfg0.win 3).blk t).view.emb (ix2 r q)) = V m c main_arg3 (ix2 (row t r) q)
  refine congrArg (V m c main_arg3) ?_
  funext a
  apply Fin.ext
  match a with
  | ⟨0, _⟩ =>
    show win0_3.index t 0 * 256 + 1 * r.val = 256 * (t.val / 8) + r.val
    rw [(idx3 t).1]; omega
  | ⟨1, _⟩ =>
    show win0_3.index t 1 * 64 + 1 * q.val = q.val
    rw [(idx3 t).2]; omega

end Cert.KernelIdeal.Blocks

end
-- ==== Proof.LibOnlineSoftmax.lean ====
import Idealize.ShloMosaic.PureOps.Ideal

/-!
# The online softmax recurrence computes the plain softmax-weighted sum

A row of finite scores is read in `J` tiles of `K` scores each.  A state
`(m, l, a)` — running maximum, running normaliser, running weighted sum — starts at
`(⊥, 0, 0)` and is updated tile by tile: the maximum is raised to cover the new tile, the
old normaliser and weighted sum are rescaled by `exp (m - m')`, and the new tile's terms
`exp (e k - m')` (times the value `h k` for the weighted sum) are added.  After all the
tiles, `m` is the maximum of the whole row, `l` is `∑ exp (e - max)`, and `a / l` is the
softmax-weighted sum `∑ (exp (e - max) / l) * h`.

Everything is stated on the extended reals, with the exponential that sends `⊥` to `0`,
so that the empty history contributes nothing to the first tile.
-/

noncomputable section

namespace Cert.Online

open Idealize.ShloMosaic
open scoped BigOperators

/-- One tile's update of (running maximum, running normaliser, running weighted sum). -/
def upd {K : ℕ} (e h : Fin K → EReal) (s : EReal × EReal × EReal) : EReal × EReal × EReal :=
  (max s.1 ((Finset.univ : Finset (Fin K)).fold max ⊥ e),
   Ideal.exp (s.1 - max s.1 ((Finset.univ : Finset (Fin K)).fold max ⊥ e)) * s.2.1 + ∑ k : Fin K, Ideal.exp (e k - max s.1 ((Finset.univ : Finset (Fin K)).fold max ⊥ e)),
   Ideal.exp (s.1 - max s.1 ((Finset.univ : Finset (Fin K)).fold max ⊥ e)) * s.2.2 + ∑ k : Fin K, Ideal.exp (e k - max s.1 ((Finset.univ : Finset (Fin K)).fold max ⊥ e)) * h k)

/-- The state after the first n tiles. -/
def after {J K : ℕ} (e h : Fin J → Fin K → EReal) : (n : ℕ) → n ≤ J → EReal × EReal × EReal
  | 0, _ => (⊥, 0, 0)
  | n + 1, hn => upd (e ⟨n, hn⟩) (h ⟨n, hn⟩) (after e h n (Nat.le_of_succ_le hn))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with binary maxima. -/
theorem coe_max (x y : ℝ) : ((max x y : ℝ) : EReal) = max (x : EReal) (y : EReal) :=
  EReal.coe_strictMono.monotone.map_max

/-- A maximum folded from `⊥` over a finite set is that set's supremum. -/
theorem fold_max_eq_sup {ι : Type*} (s : Finset ι) (f : ι → EReal) : s.fold max ⊥ f = s.sup f := rfl

/-- The supremum in the extended reals of finitely many reals, at least one, is a real. -/
theorem exists_coe_eq_sup {ι : Type*} (s : Finset ι) (hs : s.Nonempty) (f : ι → ℝ) :
    ∃ m : ℝ, (m : EReal) = s.sup (fun i => (f i : EReal)) := by
  obtain ⟨i, _, hi⟩ := Finset.exists_mem_eq_sup s hs (fun i => (f i : EReal))
  exact ⟨f i, hi.symm⟩

/-- One tile's update of a state of three reals, the tile's scores and values being real and
    `T` the tile's maximum: the new state is again three reals, given by the same formulas
    read in the reals. -/
theorem upd_coe {K : ℕ} (e h : Fin K → ℝ) (M l a T : ℝ)
    (hT : (T : EReal) = (Finset.univ : Finset (Fin K)).sup (fun k => (e k : EReal))) :
    upd (fun k => (e k : EReal)) (fun k => (h k : EReal)) ((M : EReal), (l : EReal), (a : EReal))
      = (((max M T : ℝ) : EReal),
         ((Real.exp (M - max M T) * l + ∑ k, Real.exp (e k - max M T) : ℝ) : EReal),
         ((Real.exp (M - max M T) * a + ∑ k, Real.exp (e k - max M T) * h k : ℝ) : EReal)) := by
  have hmax : max (M : EReal) ((Finset.univ : Finset (Fin K)).fold max ⊥ (fun k => (e k : EReal)))
      = ((max M T : ℝ) : EReal) := by
    rw [fold_max_eq_sup, ← hT, coe_max]
  simp only [upd, hmax, ← EReal.coe_sub, Ideal.exp_coe, ← EReal.coe_mul, ← coe_sum, ← EReal.coe_add]

/-- The first tile's update, from the empty history `(⊥, 0, 0)`: the rescaling factor is
    `exp ⊥ = 0`, and the state becomes the tile's own maximum, normaliser and weighted sum. -/
theorem upd_bot {K : ℕ} (e h : Fin K → ℝ) (T : ℝ)
    (hT : (T : EReal) = (Finset.univ : Finset (Fin K)).sup (fun k => (e k : EReal))) :
    upd (fun k => (e k : EReal)) (fun k => (h k : EReal)) (⊥, 0, 0)
      = ((T : EReal), ((∑ k, Real.exp (e k - T) : ℝ) : EReal),
         ((∑ k, Real.exp (e k - T) * h k : ℝ) : EReal)) := by
  have hmax : max (⊥ : EReal) ((Finset.univ : Finset (Fin K)).fold max ⊥ (fun k => (e k : EReal)))
      = (T : EReal) := by
    rw [fold_max_eq_sup, ← hT, max_bot_left]
  simp only [upd, hmax, EReal.bot_sub, Ideal.exp_bot, zero_mul, zero_add, ← EReal.coe_sub,
    Ideal.exp_coe, ← EReal.coe_mul, ← coe_sum]

/-- The exponential rescaling of one term when the reference maximum moves from `M` to `M'`. -/
theorem exp_rescale (M M' x : ℝ) : Real.exp (M - M') * Real.exp (x - M) = Real.exp (x - M') := by
  rw [← Real.exp_add]; congr 1; ring

/-- The invariant of the recurrence.  After `n + 1` tiles of real scores and values the state
    is three reals: the maximum `M` of the scores read so far, the sum of `exp (e - M)` over
    them, and the sum of `exp (e - M) * h` over them. -/
theorem after_succ_coe {J K : ℕ} (hK : 0 < K) (e h : Fin J → Fin K → ℝ) :
    ∀ (n : ℕ) (hn : n + 1 ≤ J), ∃ M : ℝ,
      (M : EReal) = (Finset.univ.filter (fun j : Fin J => j.val < n + 1)).sup
          (fun j => (Finset.univ : Finset (Fin K)).sup (fun k => ((e j k : ℝ) : EReal)))
      ∧ after (fun j k => ((e j k : ℝ) : EReal)) (fun j k => ((h j k : ℝ) : EReal)) (n + 1) hn
        = ((M : EReal),
           ((∑ j ∈ Finset.univ.filter (fun j : Fin J => j.val < n + 1), ∑ k, Real.exp (e j k - M) : ℝ) : EReal),
           ((∑ j ∈ Finset.univ.filter (fun j : Fin J => j.val < n + 1), ∑ k, Real.exp (e j k - M) * h j k : ℝ) : EReal)) := by
  intro n
  induction n with
  | zero =>
    intro hn
    obtain ⟨T, hT⟩ := exists_coe_eq_sup Finset.univ ⟨⟨0, hK⟩, Finset.mem_univ _⟩ (e ⟨0, hn⟩)
    have hS : Finset.univ.filter (fun j : Fin J => j.val < 0 + 1) = {⟨0, hn⟩} := by
      ext j; simp [Fin.ext_iff]
    refine ⟨T, ?_, ?_⟩
    · rw [hS, Finset.sup_singleton]; exact hT
    · rw [hS, Finset.sum_singleton, Finset.sum_singleton]
      exact upd_bot (e ⟨0, hn⟩) (h ⟨0, hn⟩) T hT
  | succ n ih =>
    intro hn
    obtain ⟨M, hM, hA⟩ := ih (Nat.le_of_succ_le hn)
    obtain ⟨T, hT⟩ := exists_coe_eq_sup Finset.univ ⟨⟨0, hK⟩, Finset.mem_univ _⟩ (e ⟨n + 1, hn⟩)
    have hS : Finset.univ.filter (fun j : Fin J => j.val < n + 1 + 1)
        = insert ⟨n + 1, hn⟩ (Finset.univ.filter (fun j : Fin J => j.val < n + 1)) := by
      ext j; simp [Fin.ext_iff]; omega
    have hnot : (⟨n + 1, hn⟩ : Fin J) ∉ Finset.univ.filter (fun j : Fin J => j.val < n + 1) := by
      simp
    refine ⟨max M T, ?_, ?_⟩
    · rw [hS, Finset.sup_insert, ← hM, ← hT, coe_max, max_comm]
    · have step : after (fun j k => ((e j k : ℝ) : EReal)) (fun j k => ((h j k : ℝ) : EReal)) (n + 1 + 1) hn
          = upd (fun k => ((e ⟨n + 1, hn⟩ k : ℝ) : EReal)) (fun k => ((h ⟨n + 1, hn⟩ k : ℝ) : EReal))
              (after (fun j k => ((e j k : ℝ) : EReal)) (fun j k => ((h j k : ℝ) : EReal)) (n + 1)
                (Nat.le_of_succ_le hn)) := rfl
      rw [step, hA, upd_coe _ _ M _ _ T hT, hS, Finset.sum_insert hnot, Finset.sum_insert hnot]
      have e1 : Real.exp (M - max M T)
            * ∑ j ∈ Finset.univ.filter (fun j : Fin J => j.val < n + 1), ∑ k, Real.exp (e j k - M)
          = ∑ j ∈ Finset.univ.filter (fun j : Fin J => j.val < n + 1), ∑ k, Real.exp (e j k - max M T) := by
        rw [Finset.mul_sum]
        refine Finset.sum_congr rfl fun j _ => ?_
        rw [Finset.mul_sum]
        exact Finset.sum_congr rfl fun k _ => exp_rescale _ _ _
      have e2 : Real.exp (M - max M T)
            * ∑ j ∈ Finset.univ.filter (fun j : Fin J => j.val < n + 1), ∑ k, Real.exp (e j k - M) * h j k
          = ∑ j ∈ Finset.univ.filter (fun j : Fin J => j.val < n + 1), ∑ k, Real.exp (e j k - max M T) * h j k := by
        rw [Finset.mul_sum]
        refine Finset.sum_congr rfl fun j _ => ?_
        rw [Finset.mul_sum]
        refine Finset.sum_congr rfl fun k _ => ?_
        rw [← mul_assoc, exp_rescale]
      rw [e1, e2, add_comm (∑ j ∈ _, ∑ k, Real.exp (e j k - max M T)),
        add_comm (∑ j ∈ _, ∑ k, Real.exp (e j k - max M T) * h j k)]

/-- **The online softmax recurrence is the plain softmax.**  For `J ≥ 1` tiles of `K ≥ 1` real
    scores `e j k` with real values `h j k`, the state `(m, l, a)` after all `J` tiles satisfies:
    `m` is the maximum of all the scores; `l` is the sum over all scores of `exp (e - m)`; and the
    quotient `a / l` is the softmax-weighted sum of the values, `∑ (exp (e - m) / l) * h`. -/
theorem after_all {J K : ℕ} (hJ : 0 < J) (hK : 0 < K) (e h : Fin J → Fin K → ℝ) :
    (after (fun j k => ((e j k : ℝ) : EReal)) (fun j k => ((h j k : ℝ) : EReal)) J le_rfl).1
        = (Finset.univ : Finset (Fin J)).sup (fun j => (Finset.univ : Finset (Fin K)).sup (fun k => ((e j k : ℝ) : EReal)))
    ∧ (after (fun j k => ((e j k : ℝ) : EReal)) (fun j k => ((h j k : ℝ) : EReal)) J le_rfl).2.1
        = ∑ j : Fin J, ∑ k : Fin K, Ideal.exp (((e j k : ℝ) : EReal) - (Finset.univ : Finset (Fin J)).sup (fun j => (Finset.univ : Finset (Fin K)).sup (fun k => ((e j k : ℝ) : EReal))))
    ∧ Ideal.div (after (fun j k => ((e j k : ℝ) : EReal)) (fun j k => ((h j k : ℝ) : EReal)) J le_rfl).2.2 (after (fun j k => ((e j k : ℝ) : EReal)) (fun j k => ((h j k : ℝ) : EReal)) J le_rfl).2.1
        = ∑ j : Fin J, ∑ k : Fin K, Ideal.div (Ideal.exp (((e j k : ℝ) : EReal) - (Finset.univ : Finset (Fin J)).sup (fun j => (Finset.univ : Finset (Fin K)).sup (fun k => ((e j k : ℝ) : EReal))))) (∑ j : Fin J, ∑ k : Fin K, Ideal.exp (((e j k : ℝ) : EReal) - (Finset.univ : Finset (Fin J)).sup (fun j => (Finset.univ : Finset (Fin K)).sup (fun k => ((e j k : ℝ) : EReal))))) * ((h j k : ℝ) : EReal) := by
  obtain ⟨n, rfl⟩ : ∃ n, J = n + 1 := ⟨J - 1, by omega⟩
  obtain ⟨M, hM, hA⟩ := after_succ_coe hK e h n le_rfl
  have hS : Finset.univ.filter (fun j : Fin (n + 1) => j.val < n + 1) = Finset.univ :=
    Finset.filter_true_of_mem fun j _ => j.isLt
  rw [hS] at hM hA
  rw [hA, ← hM]
  -- the normaliser is a positive real
  have hl : (0 : ℝ) < ∑ j : Fin (n + 1), ∑ k : Fin K, Real.exp (e j k - M) := by
    haveI : Nonempty (Fin K) := ⟨⟨0, hK⟩⟩
    exact Finset.sum_pos (fun j _ => Finset.sum_pos (fun k _ => Real.exp_pos _) Finset.univ_nonempty)
      Finset.univ_nonempty
  have hsum : ∑ j : Fin (n + 1), ∑ k : Fin K, Ideal.exp (((e j k : ℝ) : EReal) - (M : EReal))
      = ((∑ j : Fin (n + 1), ∑ k : Fin K, Real.exp (e j k - M) : ℝ) : EReal) := by
    simp only [← EReal.coe_sub, Ideal.exp_coe, ← coe_sum]
  refine ⟨rfl, hsum.symm, ?_⟩
  rw [hsum]
  simp only [Ideal.div_coe hl.ne', ← EReal.coe_sub, Ideal.exp_coe, ← EReal.coe_mul, ← coe_sum]
  congr 1
  rw [Finset.sum_mul]
  refine Finset.sum_congr rfl fun j _ => ?_
  rw [Finset.sum_mul]
  refine Finset.sum_congr rfl fun k _ => ?_
  ring

end Cert.Online
-- ==== Proof.Tiles.lean ====
import proofs.«176089_j7017976562214_2_alg».proof.Proof.Spec
import proofs.«176089_j7017976562214_2_alg».proof.Proof.LibOnlineSoftmax

/-!
# The 32768 states read as eight tiles of 4096

The map `(j, k) ↦ k + 4096 * j` is a bijection from `Fin 8 × Fin 4096` onto `Fin 32768`
(quotient and remainder by 4096 invert it).  Hence a sum over all the states is the sum over the
tiles of each tile's sum, and a supremum over all the states is the supremum over the tiles of each
tile's supremum.  With these two regroupings the plain softmax-weighted sum over the 32768 states
(the margin) is the double sum that the online recurrence is known to compute, for real inputs.
-/

noncomputable section

namespace Cert.Tiles

open Cert.Spec Cert.Online Idealize.ShloMosaic Idealize.ShloMosaic.ValueIdx
open scoped BigOperators

/-- The tile numbering as a bijection: its inverse sends a state to its quotient and remainder by 4096. -/
def tileEquiv : Fin 8 × Fin 4096 ≃ Fin 32768 where
  toFun p := tile p.1 p.2
  invFun s := (⟨s.val / 4096, by have := s.isLt; omega⟩, ⟨s.val % 4096, by omega⟩)
  left_inv := by
    rintro ⟨⟨j, hj⟩, ⟨k, hk⟩⟩
    refine Prod.ext (Fin.ext ?_) (Fin.ext ?_)
    · show (k + 4096 * j) / 4096 = j
      omega
    · show (k + 4096 * j) % 4096 = k
      omega
  right_inv := by
    rintro ⟨s, hs⟩
    refine Fin.ext ?_
    show s % 4096 + 4096 * (s / 4096) = s
    omega

theorem tileEquiv_apply (j : Fin 8) (k : Fin 4096) : tileEquiv (j, k) = tile j k := rfl

/-- Every state is entry `s % 4096` of tile `s / 4096`. -/
theorem exists_tile (s : Fin 32768) : ∃ j k, tile j k = s :=
  ⟨(tileEquiv.symm s).1, (tileEquiv.symm s).2, tileEquiv.apply_symm_apply s⟩

/-- The tile numbering is injective. -/
theorem tile_injective {j j' : Fin 8} {k k' : Fin 4096} (h : tile j k = tile j' k') : j = j' ∧ k = k' := by
  have := tileEquiv.injective (a₁ := (j, k)) (a₂ := (j', k')) h
  exact ⟨congrArg Prod.fst this, congrArg Prod.snd this⟩

/-- A sum over the 32768 states is the sum over the eight tiles of each tile's 4096 terms. -/
theorem sum_tiles {M : Type*} [AddCommMonoid M] (g : Fin 32768 → M) :
    ∑ s : Fin 32768, g s = ∑ j : Fin 8, ∑ k : Fin 4096, g (tile j k) := by
  rw [← tileEquiv.sum_comp g, Fintype.sum_prod_type]
  rfl

/-- A supremum over the 32768 states is the supremum over the eight tiles of each tile's supremum. -/
theorem sup_tiles (g : Fin 32768 → EReal) :
    (Finset.univ : Finset (Fin 32768)).sup g
      = (Finset.univ : Finset (Fin 8)).sup (fun j => (Finset.univ : Finset (Fin 4096)).sup (fun k => g (tile j k))) := by
  apply le_antisymm
  · refine Finset.sup_le fun s _ => ?_
    obtain ⟨j, k, rfl⟩ := exists_tile s
    exact le_trans
      (Finset.le_sup (f := fun k => g (tile j k)) (Finset.mem_univ k))
      (Finset.le_sup (f := fun j => (Finset.univ : Finset (Fin 4096)).sup (fun k => g (tile j k))) (Finset.mem_univ j))
  · refine Finset.sup_le fun j _ => Finset.sup_le fun k _ => ?_
    exact Finset.le_sup (f := g) (Finset.mem_univ (tile j k))

/-- The margin of batch row `b` and label `i`, with the two coordinates of the index read off. -/
theorem margin_ix2 (f : Sf.Idx → EReal) (S : Ss.Idx → EReal) (b : Fin 512) (i : Fin 64) :
    margin f S (ix2 b i)
      = ∑ s : Fin 32768, Ideal.div (Ideal.exp (score f S b s - top f S b)) (norm f S b) * S (ix2 s i) := rfl

/-- The score of real inputs is the real inner product. -/
theorem score_coe (f : Sf.Idx → ℝ) (S : Ss.Idx → ℝ) (b : Fin 512) (s : Fin 32768) :
    score (fun x => ((f x : ℝ) : EReal)) (fun x => ((S x : ℝ) : EReal)) b s
      = ((∑ i : Fin 64, f (ix2 b i) * S (ix2 s i) : ℝ) : EReal) := by
  simp only [score, ← EReal.coe_mul, ← coe_sum]

/-- For real inputs the online recurrence over the eight tiles ends with the margin as its quotient. -/
theorem margin_online_coe (f : Sf.Idx → ℝ) (S : Ss.Idx → ℝ) (b : Fin 512) (i : Fin 64) :
    Ideal.div
        (after (fun j k => score (fun x => ((f x : ℝ) : EReal)) (fun x => ((S x : ℝ) : EReal)) b (tile j k))
          (fun j k => ((S (ix2 (tile j k) i) : ℝ) : EReal)) 8 le_rfl).2.2
        (after (fun j k => score (fun x => ((f x : ℝ) : EReal)) (fun x => ((S x : ℝ) : EReal)) b (tile j k))
          (fun j k => ((S (ix2 (tile j k) i) : ℝ) : EReal)) 8 le_rfl).2.1
      = margin (fun x => ((f x : ℝ) : EReal)) (fun x => ((S x : ℝ) : EReal)) (ix2 b i) := by
  have key := (after_all (J := 8) (K := 4096) (by norm_num) (by norm_num)
    (fun j k => ∑ i' : Fin 64, f (ix2 b i') * S (ix2 (tile j k) i'))
    (fun j k => S (ix2 (tile j k) i))).2.2
  have htop : top (fun x => ((f x : ℝ) : EReal)) (fun x => ((S x : ℝ) : EReal)) b
      = (Finset.univ : Finset (Fin 8)).sup (fun j => (Finset.univ : Finset (Fin 4096)).sup
          (fun k => ((∑ i' : Fin 64, f (ix2 b i') * S (ix2 (tile j k) i') : ℝ) : EReal))) := by
    rw [Cert.Spec.top, sup_tiles]
    simp only [score_coe]
  have hnorm : norm (fun x => ((f x : ℝ) : EReal)) (fun x => ((S x : ℝ) : EReal)) b
      = ∑ j : Fin 8, ∑ k : Fin 4096, Ideal.exp
          (((∑ i' : Fin 64, f (ix2 b i') * S (ix2 (tile j k) i') : ℝ) : EReal)
            - (Finset.univ : Finset (Fin 8)).sup (fun j => (Finset.univ : Finset (Fin 4096)).sup
                (fun k => ((∑ i' : Fin 64, f (ix2 b i') * S (ix2 (tile j k) i') : ℝ) : EReal)))) := by
    rw [Cert.Spec.norm, sum_tiles, htop]
    simp only [score_coe]
  rw [margin_ix2, sum_tiles, hnorm, htop]
  simp only [score_coe]
  exact key

/-- **The online recurrence over the eight tiles computes the margin.**  For real-valued `f` and `S`,
    the final weighted sum divided by the final normaliser is the softmax-weighted sum over all the
    32768 states of column `i` of `S`. -/
theorem margin_online (f : Sf.Idx → EReal) (S : Ss.Idx → EReal)
    (hf : ∀ x, ∃ r : ℝ, f x = (r : EReal)) (hS : ∀ x, ∃ r : ℝ, S x = (r : EReal)) (b : Fin 512) (i : Fin 64) :
    Ideal.div (after (fun j k => score f S b (tile j k)) (fun j k => S (ix2 (tile j k) i)) 8 le_rfl).2.2
              (after (fun j k => score f S b (tile j k)) (fun j k => S (ix2 (tile j k) i)) 8 le_rfl).2.1
      = margin f S (ix2 b i) := by
  choose f' hf' using hf
  choose S' hS' using hS
  obtain rfl : f = fun x => ((f' x : ℝ) : EReal) := funext hf'
  obtain rfl : S = fun x => ((S' x : ℝ) : EReal) := funext hS'
  exact margin_online_coe f' S' b i

end Cert.Tiles

end
-- ==== Proof.LibDotLastAxes.lean ====
/-
  A matrix product that contracts the LAST axis of both operands, at the ideal values.

  For `A` of shape [M, K] and `B` of shape [N, K] the product into a zero accumulator has, at row `a` and column `b`,
  the value `∑ c, A (a, c) * B (b, c)`: both operands are read along their rows. With a row vector added to every row
  of the product (a bias of shape [1, N] cast to its own shape and broadcast down the rows) this is one unit of a dense
  layer, `(∑ c, A (a, c) * B (b, c)) + bias (0, b)`.
-/
import Idealize.ShloMosaic.PureOps.Ideal.Laws
import Idealize.ShloMosaic.Lib.ValueIdx
import Idealize.ShloMosaic.Lib.Pipeline.Value

noncomputable section

open scoped BigOperators

namespace Idealize.ShloMosaic.DotLastAxes

open Idealize.ShloMosaic Idealize.ShloMosaic.ValueIdx

variable {M K N : Nat}

/-- The product of an [M, K] by an [N, K] matrix over their last axes, into the zero splat, read at an index: the sum
    over the contracted coordinate of the products of the two rows' entries. -/
theorem matmul_zero_apply {φ₁ φ₂ : FTy}
    (w : DotDims.WF (⟨2, ![M, K]⟩ : Shape) (⟨2, ![N, K]⟩ : Shape) (⟨2, ![M, N]⟩ : Shape) [1] [1] [0] [0] [] [])
    (prec : Option ContractPrecision) (A : FVec Ideal ⟨2, ![M, K]⟩ φ₁) (B : FVec Ideal ⟨2, ![N, K]⟩ φ₂)
    (a : Fin M) (b : Fin N) :
    matmul (⟨[1], [1], [0], [0], [], [], w⟩ : DotDims _ _ _) prec A B (constant (F := Ideal) ⟨2, ![M, N]⟩ .f32 0x00000000#32) (ix2 a b)
      = ∑ c : Fin K, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims (⟨2, ![M, K]⟩ : Shape) (⟨2, ![N, K]⟩ : Shape) (⟨2, ![M, N]⟩ : Shape)) K rfl rfl).symm]
  refine Finset.sum_congr rfl fun c _ => ?_
  have c2 := contrEquiv1_symm_val (⟨[1], [1], [0], [0], [], [], w⟩ : DotDims (⟨2, ![M, K]⟩ : Shape) (⟨2, ![N, K]⟩ : Shape) (⟨2, ![M, N]⟩ : Shape)) K rfl rfl c
  have l2 : (⟨[1], [1], [0], [0], [], [], w⟩ : DotDims (⟨2, ![M, K]⟩ : Shape) (⟨2, ![N, K]⟩ : Shape) (⟨2, ![M, N]⟩ : Shape)).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims (⟨2, ![M, K]⟩ : Shape) (⟨2, ![N, K]⟩ : Shape) (⟨2, ![M, N]⟩ : Shape)).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- A [1, N] row cast to its own shape and broadcast down M rows reads, at row `a` and column `b`, the row's entry `b`. -/
theorem rowBroadcast_apply {α : Type} (hc : (⟨2, ![1, N]⟩ : Shape).ShapeCasts ⟨2, ![1, N]⟩)
    (hb : (⟨2, ![1, N]⟩ : Shape).Broadcasts ⟨2, ![M, N]⟩) (x : (⟨2, ![1, N]⟩ : Shape).Idx → α) (a : Fin M) (b : Fin N) :
    broadcastTo ⟨2, ![M, N]⟩ (shapeCast ⟨2, ![1, N]⟩ x hc) hb (ix2 a b) = x (ix2 0 b) := by
  rw [shapeCast_self]
  refine broadcastTo_apply x hb (ix2 a b) (ix2 0 b) fun ax => ?_
  match ax with
  | ⟨0, _⟩ => exact (if_pos rfl).symm
  | ⟨1, _⟩ =>
    show (b : ℕ) = if N = 1 then 0 else (b : ℕ)
    split
    · have := b.isLt; omega
    · rfl

end Idealize.ShloMosaic.DotLastAxes

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibColumn.lean ====
/-
  A column kept beside an array: the two layout steps of a row-wise reduction with its axis kept.

  A vector of length a regarded as an a × 1 column reads, at (i, u), the vector at i; an a × 1 column broadcast
  across b columns reads, at (p, c), the column at p. Both hold for every a and b (a = 1 and b = 1 included:
  the unit coordinate is then the only one there is). Indices are written with the literal-extent constructors
  ix1, ix2, so that the statements apply by unification to a term written the same way.
-/
import Idealize.ShloMosaic.Lib.Pipeline.Value
import Idealize.ShloMosaic.Lib.ValueIdx

namespace Cert.LibColumn

open Idealize.ShloMosaic Idealize.ShloMosaic.ValueIdx

variable {α : Type}

/-- A vector of length `a` cast to an `a × 1` column reads, at `(i, u)`, the vector at `i`, whatever the unit
    coordinate `u`. Every `a`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at `p`. Every `a` and `b`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibRowScalars.lean ====
/-
  Reading a block of rows one row at a time, for any number of rows `a` and any row length `b`:

  * the sum along the lanes of an `[a, b]` array, at row `p`, is `∑ k : Fin b` of the entries of row `p`;
  * a vector of `a` entries regarded as an `[a, 1]` column has entry `p` in row `p`;
  * the single entry of a `[1, 1]` array broadcast down an `[a, 1]` column is that entry in every row;
  * the leading `m` columns of an `[a, b]` array, at `(p, k)`, are the array at `(p, k)`;
  * three `[a, 1]` columns laid side by side into `[a, 3]` have, in row `p`, the first column's entry at
    column 0, the second's at column 1, the third's at column 2.

  All hold for every extent `a` (and `b`, `m ≤ b`); the column count of the last one is the literal 3.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowScalars

open Idealize.ShloMosaic Idealize.ShloMosaic.ValueIdx

variable {α : Type}

/-- The lane sum of an `[a, b]` array of extended reals at row `p`: the sum of that row's `b` entries. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src ?_
  funext d
  match d with
  | ⟨0, _⟩ => rfl
  | ⟨1, _⟩ => rfl

/-- A vector of `a` entries cast to an `[a, 1]` column reads, at `(p, u)`, entry `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The one entry of a `[1, 1]` array broadcast down an `[a, 1]` column is that entry, in every row. -/
theorem splat11_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  have hu : u = 0 := Subsingleton.elim _ _
  subst hu
  exact broadcastTo_1b_ab_apply v h p 0

/-- The leading `m` columns of an `[a, b]` array read, at `(p, k)`, the array at `(p, k)`. -/
theorem leadingCols_apply {a b m : ℕ} (X : (⟨2, ![a, b]⟩ : Shape).Idx → α)
    (h : (⟨2, ![a, b]⟩ : Shape).Slices ![0, 0] ⟨2, ![a, m]⟩) (p : Fin a) (k : Fin m) (k' : Fin b) (hk : k'.val = k.val) :
    extractStridedSlice ⟨2, ![a, m]⟩ ![0, 0] X h (ix2 p k) = X (ix2 p k') :=
  slice2_axis1_apply 0 X h p k k' (by rw [hk, Nat.zero_add])

section ThreeColumns

variable {a : ℕ} (x y z : (⟨2, ![a, 1]⟩ : Shape).Idx → α)
  (h : Shape.Concatenates [(⟨2, ![a, 1]⟩ : Shape), ⟨2, ![a, 1]⟩, ⟨2, ![a, 1]⟩] ⟨2, ![a, 3]⟩ 1)

/-- Three columns side by side, read in column 0: the first column. -/
theorem cols3_apply_0 (p : Fin a) :
    concatenate ⟨2, ![a, 3]⟩ 1 [⟨⟨2, ![a, 1]⟩, x⟩, ⟨⟨2, ![a, 1]⟩, y⟩, ⟨⟨2, ![a, 1]⟩, z⟩] h (ix2 p (0 : Fin 3))
      = x (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (0 : Fin 3)) 0 (by show 0 < 3; omega) ⟨2, ![a, 1]⟩ x rfl rfl 0 rfl (ix2 p (0 : Fin 1))
    (fun b hb => by
      match b with
      | ⟨0, _⟩ => rfl
      | ⟨1, _⟩ => exact absurd rfl hb)
    rfl

/-- Three columns side by side, read in column 1: the second column. -/
theorem cols3_apply_1 (p : Fin a) :
    concatenate ⟨2, ![a, 3]⟩ 1 [⟨⟨2, ![a, 1]⟩, x⟩, ⟨⟨2, ![a, 1]⟩, y⟩, ⟨⟨2, ![a, 1]⟩, z⟩] h (ix2 p (1 : Fin 3))
      = y (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (1 : Fin 3)) 1 (by show 1 < 3; omega) ⟨2, ![a, 1]⟩ y rfl rfl 1 rfl (ix2 p (0 : Fin 1))
    (fun b hb => by
      match b with
      | ⟨0, _⟩ => rfl
      | ⟨1, _⟩ => exact absurd rfl hb)
    rfl

/-- Three columns side by side, read in column 2: the third column. -/
theorem cols3_apply_2 (p : Fin a) :
    concatenate ⟨2, ![a, 3]⟩ 1 [⟨⟨2, ![a, 1]⟩, x⟩, ⟨⟨2, ![a, 1]⟩, y⟩, ⟨⟨2, ![a, 1]⟩, z⟩] h (ix2 p (2 : Fin 3))
      = z (ix2 p (0 : Fin 1)) :=
  concatenate_apply_piece (t := ⟨2, ![a, 3]⟩) (1 : Fin 2) [⟨⟨2, ![a, 1]⟩, x⟩, ⟨⟨2, ![a, 1]⟩, y⟩, ⟨⟨2, ![a, 1]⟩, z⟩] h
    (ix2 p (2 : Fin 3)) 2 (by show 2 < 3; omega) ⟨2, ![a, 1]⟩ z rfl rfl 2 rfl (ix2 p (0 : Fin 1))
    (fun b hb => by
      match b with
      | ⟨0, _⟩ => rfl
      | ⟨1, _⟩ => exact absurd rfl hb)
    rfl

end ThreeColumns

end Cert.RowScalars

end
-- ==== Proof.PayIdx.lean ====
import proofs.«176089_j7017976562214_2_alg».proof.Proof.Gen.KernelIdeal.Skeleton
import proofs.«176089_j7017976562214_2_alg».proof.Proof.Spec
import proofs.«176089_j7017976562214_2_alg».proof.Proof.LibOnlineSoftmax
import proofs.«176089_j7017976562214_2_alg».proof.Proof.LibDotLastAxes
import proofs.«176089_j7017976562214_2_alg».proof.Proof.LibPlainDot
import proofs.«176089_j7017976562214_2_alg».proof.Proof.LibColumn
import proofs.«176089_j7017976562214_2_alg».proof.Proof.LibRowScalars

/-!
# The kernel body's values, entry by entry

One grid point holds a block `x0` of 256 rows of `f`, a tile `x1` of 4096 rows of `S`, and three carried
buffers: a column `m0` of running maxima, a column `l0` of running normalisers and a block `acc0` of running
weighted sums.  Read at row `r` (and label `i`), the body's arithmetic is: the 4096 scores
`e k = ∑ q, x0 (r, q) * x1 (k, q)`; the new maximum `m' = max m0 (max over k of e k)`; the rescaling factor
`exp (m0 - m')`; the new normaliser `exp (m0 - m') * l0 + ∑ k, exp (e k - m')`; and the new weighted sum
`exp (m0 - m') * acc0 + ∑ k, exp (e k - m') * x1 (k, i)`.  That is one tile's update of the online softmax
recurrence.  The reset values are `(-∞, 0, 0)`, the margin is the quotient of the weighted sum by the
normaliser, and the last payload is the masked binary cross entropy of that margin.
-/

noncomputable section

namespace Cert.KernelIdeal.PayIdx

open Idealize.ShloMosaic Idealize.ShloMosaic.ValueIdx
open Cert.KernelIdeal Cert.KernelIdeal.Gen
open scoped BigOperators

variable [Cert.KernelIdeal.Facts]

/-- The f32 word `0xFF800000` is `-∞`. -/
theorem ofBits_neg_inf_f32 : Ideal.ofBits .f32 0xFF800000#32 = (⊥ : EReal) := by
  simp [Ideal.ofBits, Ideal.ieee]

/-- A fold of `max` over a whole finite type depends only on the start value and the function. -/
theorem fold_max_congr {ι : Type} [Fintype ι] {c c' : EReal} {f g : ι → EReal} (hc : c = c') (hfg : f = g) :
    (Finset.univ : Finset ι).fold max c f = (Finset.univ : Finset ι).fold max c' g := by
  subst hc hfg; rfl

/-- The lane maximum of an `[a, b]` array of extended reals at row `p`, from `-∞`: the fold of `max` over
    that row's `b` entries. -/
theorem laneMax_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (⊥ : EReal) (fun k => src (ix2 p k)) := by
  refine (Ideal.multiReduction_maximumf_single src 0xFF800000#32 h hφ hacc (ix1 p)).trans ?_
  refine fold_max_congr (ι := Fin b) ofBits_neg_inf_f32 ?_
  funext k
  refine congrArg src ?_
  funext d
  match d with
  | ⟨0, _⟩ => rfl
  | ⟨1, _⟩ => rfl

section Step

variable (x0 : FVec Ideal S256x64 .f32) (x1 : FVec Ideal S4096x64 .f32) (m0 l0 : FVec Ideal S256x1 .f32)
  (acc0 : FVec Ideal S256x64 .f32) (r : Fin 256) (i : Fin 64)

/-- The scores: entry `(r, k)` is the inner product of row `r` of the block with row `k` of the tile. -/
theorem pay9_apply (k : Fin 4096) :
    k0_pay9 (F := Ideal) x0 x1 (ix2 r k) = ∑ q : Fin 64, x0 (ix2 r q) * x1 (ix2 k q) :=
  DotLastAxes.matmul_zero_apply (M := 256) (K := 64) (N := 4096)
    Facts₀.dot_S256x64_S4096x64_S256x4096_1_1_0_0_n_n_wf none
    (truncf .bf16 x0 Facts₀.bitsLt_bf16_f32) (k0_pay8 (F := Ideal) x1) r k

end Step
section Step2

variable (x0 : FVec Ideal S256x64 .f32) (x1 : FVec Ideal S4096x64 .f32) (m0 l0 : FVec Ideal S256x1 .f32)
  (acc0 : FVec Ideal S256x64 .f32) (r : Fin 256) (i : Fin 64)

/-- The new maximum of row `r`: the old one raised to cover the row's 4096 scores. -/
theorem pay10_apply :
    k0_pay10 (F := Ideal) x0 x1 m0 (ix2 r (0 : Fin 1))
      = max (m0 (ix2 r (0 : Fin 1)))
          ((Finset.univ : Finset (Fin 4096)).fold max (⊥ : EReal) (fun k => ∑ q : Fin 64, x0 (ix2 r q) * x1 (ix2 k q))) := by
  unfold k0_pay10
  refine (maximumf_apply _ _ _).trans ?_
  refine congrArg (max (m0 (ix2 r (0 : Fin 1)))) ?_
  refine (Cert.LibColumn.shapeCast_a_a1_apply _ _ r (0 : Fin 1)).trans ?_
  refine (laneMax_apply (a := 256) (b := 4096) (k0_pay9 (F := Ideal) x0 x1) _ _ _ r).trans ?_
  exact fold_max_congr rfl (funext fun k => pay9_apply x0 x1 r k)

end Step2
section Step3

variable (x0 : FVec Ideal S256x64 .f32) (x1 : FVec Ideal S4096x64 .f32) (m0 m1 l0 : FVec Ideal S256x1 .f32)
  (acc0 : FVec Ideal S256x64 .f32) (r : Fin 256) (i : Fin 64)

/-- The rescaling factor of row `r`: `exp` of the carried maximum minus the new one. -/
theorem pay11_apply :
    k0_pay11 (F := Ideal) x0 x1 m0 m1 (ix2 r (0 : Fin 1))
      = Ideal.exp (m1 (ix2 r (0 : Fin 1)) - k0_pay10 (F := Ideal) x0 x1 m0 (ix2 r (0 : Fin 1))) := rfl

/-- The shifted exponentials: entry `(r, k)` is `exp` of the score minus the row's new maximum. -/
theorem pay12_apply (k : Fin 4096) :
    k0_pay12 (F := Ideal) x0 x1 m0 (ix2 r k)
      = Ideal.exp (k0_pay9 (F := Ideal) x0 x1 (ix2 r k) - k0_pay10 (F := Ideal) x0 x1 m0 (ix2 r (0 : Fin 1))) := by
  unfold k0_pay12
  refine congrArg Ideal.exp ?_
  refine (subf_apply _ _ _).trans ?_
  refine congrArg (k0_pay9 (F := Ideal) x0 x1 (ix2 r k) - ·) ?_
  exact Cert.LibColumn.broadcastTo_a1_ab_apply _ _ r k

end Step3
section Step4

variable (x0 : FVec Ideal S256x64 .f32) (x1 : FVec Ideal S4096x64 .f32) (m0 m1 l0 : FVec Ideal S256x1 .f32)
  (acc0 : FVec Ideal S256x64 .f32) (r : Fin 256) (i : Fin 64)

/-- The new normaliser of row `r`: the carried one rescaled, plus the row sum of the shifted exponentials. -/
theorem pay13_apply :
    k0_pay13 (F := Ideal) x0 x1 m0 m1 l0 (ix2 r (0 : Fin 1))
      = k0_pay11 (F := Ideal) x0 x1 m0 m1 (ix2 r (0 : Fin 1)) * l0 (ix2 r (0 : Fin 1))
        + ∑ k : Fin 4096, k0_pay12 (F := Ideal) x0 x1 m0 (ix2 r k) := by
  unfold k0_pay13
  refine (congrFun (shapeCast_self _ _) _).trans ?_
  refine (addf_apply _ _ _).trans ?_
  refine congrArg (k0_pay11 (F := Ideal) x0 x1 m0 m1 (ix2 r (0 : Fin 1)) * l0 (ix2 r (0 : Fin 1)) + ·) ?_
  refine (Cert.LibColumn.shapeCast_a_a1_apply _ _ r (0 : Fin 1)).trans ?_
  exact Cert.RowScalars.laneSum_apply (a := 256) (b := 4096) _ _ _ _ r

/-- The new weighted sum at `(r, i)`: the carried one rescaled, plus the shifted exponentials of row `r`
    against column `i` of the tile. -/
theorem pay14_apply :
    k0_pay14 (F := Ideal) x0 x1 m0 m1 acc0 (ix2 r i)
      = k0_pay11 (F := Ideal) x0 x1 m0 m1 (ix2 r (0 : Fin 1)) * acc0 (ix2 r i)
        + ∑ k : Fin 4096, k0_pay12 (F := Ideal) x0 x1 m0 (ix2 r k) * x1 (ix2 k i) := by
  unfold k0_pay14
  refine (addf_apply _ _ _).trans ?_
  refine congrArg₂ (· + ·) ?_ ?_
  · refine (mulf_apply _ _ _).trans ?_
    refine congrArg (· * acc0 (ix2 r i)) ?_
    exact Cert.LibColumn.broadcastTo_a1_ab_apply _ _ r i
  · exact Cert.Sage.matmul_plain_zero_apply (M := 256) (K := 4096) (N := 64) none
      (truncf .bf16 (k0_pay12 (F := Ideal) x0 x1 m0) Facts₀.bitsLt_bf16_f32) (k0_pay8 (F := Ideal) x1) r i

end Step4
section Final

/-- **One grid point's arithmetic is one tile's update of the online recurrence**, read at row `r` and label `i`:
    the scores are the inner products of row `r` of the block with the rows of the tile, and the values are
    column `i` of the tile. -/
theorem step_eq (x0 : FVec Ideal S256x64 .f32) (x1 : FVec Ideal S4096x64 .f32) (m0 l0 : FVec Ideal S256x1 .f32)
    (acc0 : FVec Ideal S256x64 .f32) (r : Fin 256) (i : Fin 64) :
    (k0_pay2 (F := Ideal) (k0_pay10 x0 x1 m0) (ix2 r (0 : Fin 1)),
     k0_pay13 (F := Ideal) x0 x1 m0 m0 l0 (ix2 r (0 : Fin 1)),
     k0_pay1 (F := Ideal) (k0_pay14 x0 x1 m0 m0 acc0) (ix2 r i))
    = Cert.Online.upd (fun k : Fin 4096 => ∑ q : Fin 64, x0 (ix2 r q) * x1 (ix2 k q)) (fun k : Fin 4096 => x1 (ix2 k i))
        (m0 (ix2 r (0 : Fin 1)), l0 (ix2 r (0 : Fin 1)), acc0 (ix2 r i)) := by
  have h2 : k0_pay2 (F := Ideal) (k0_pay10 x0 x1 m0) (ix2 r (0 : Fin 1))
      = k0_pay10 (F := Ideal) x0 x1 m0 (ix2 r (0 : Fin 1)) := by
    unfold k0_pay2
    exact congrFun (shapeCast_self _ _) _
  have h1 : k0_pay1 (F := Ideal) (k0_pay14 x0 x1 m0 m0 acc0) (ix2 r i)
      = k0_pay14 (F := Ideal) x0 x1 m0 m0 acc0 (ix2 r i) := by
    unfold k0_pay1
    exact congrFun (shapeCast_self _ _) _
  rw [h2, h1, pay13_apply, pay14_apply, pay11_apply]
  simp only [pay12_apply, pay9_apply, pay10_apply, Cert.Online.upd]

/-- At the first tile the three buffers are reset to `-∞`, `0` and `0`. -/
theorem reset_eq (r : Fin 256) (i : Fin 64) :
    (k0_pay5 (F := Ideal) (ix2 r (0 : Fin 1)), k0_pay6 (F := Ideal) (ix2 r (0 : Fin 1)), k0_pay7 (F := Ideal) (ix2 r i))
      = ((⊥ : EReal), (0 : EReal), (0 : EReal)) := by
  have h5 : k0_pay5 (F := Ideal) (ix2 r (0 : Fin 1)) = (⊥ : EReal) := by
    unfold k0_pay5
    refine (congrFun (shapeCast_self _ _) _).trans ?_
    exact ofBits_neg_inf_f32
  have h6 : k0_pay6 (F := Ideal) (ix2 r (0 : Fin 1)) = (0 : EReal) := by
    unfold k0_pay6
    refine (congrFun (shapeCast_self _ _) _).trans ?_
    exact Ideal.ofBits_zero_f32
  have h7 : k0_pay7 (F := Ideal) (ix2 r i) = (0 : EReal) := by
    unfold k0_pay7
    refine (congrFun (shapeCast_self _ _) _).trans ?_
    exact Ideal.ofBits_zero_f32
  rw [h5, h6, h7]

/-- The margin at `(r, i)`: the weighted sum divided by row `r`'s normaliser. -/
theorem margin_eq (a : FVec Ideal S256x64 .f32) (l : FVec Ideal S256x1 .f32) (r : Fin 256) (i : Fin 64) :
    k0_pay3 (F := Ideal) a l (ix2 r i) = Ideal.div (a (ix2 r i)) (l (ix2 r (0 : Fin 1))) := by
  unfold k0_pay3
  refine (divf_apply _ _ _).trans ?_
  exact congrArg (Ideal.div (a (ix2 r i))) (Cert.LibColumn.broadcastTo_a1_ab_apply _ _ r i)

/-- The last payload at `(r, i)` is the masked binary cross entropy of the margin there: the kernel writes the
    negation as `0 - x`. -/
theorem entries_eq (a : FVec Ideal S256x64 .f32) (l : FVec Ideal S256x1 .f32) (y w : FVec Ideal S256x64 .f32)
    (r : Fin 256) (i : Fin 64) :
    k0_pay4 (F := Ideal) a l y w (ix2 r i)
      = Cert.Spec.bce (Ideal.div (a (ix2 r i)) (l (ix2 r (0 : Fin 1)))) (y (ix2 r i)) (w (ix2 r i)) := by
  have h : k0_pay4 (F := Ideal) a l y w (ix2 r i)
      = (Ideal.ofBits .f32 0x00000000#32
          - (y (ix2 r i) * max (Ideal.ofBits .f32 0xC2C80000#32) (Ideal.log (k0_pay3 (F := Ideal) a l (ix2 r i)))
            + (Ideal.ofBits .f32 0x3F800000#32 - y (ix2 r i))
              * max (Ideal.ofBits .f32 0xC2C80000#32)
                  (Ideal.log (Ideal.ofBits .f32 0x3F800000#32 - k0_pay3 (F := Ideal) a l (ix2 r i)))))
        * w (ix2 r i) := rfl
  rw [h, margin_eq a l r i, Ideal.ofBits_zero_f32, zero_sub]
  rfl

end Final

end Cert.KernelIdeal.PayIdx

end
-- ==== Proof.Invariant.lean ====
/-
  The invariant of the grid: what the three carried buffers hold after each point.

  The sixteen points run through the two batch tiles one after the other, and through the eight state tiles inside
  each.  After point `n` the carried buffers hold, at row `r` of the batch tile (and label `i` for the weighted
  sum), the online softmax recurrence of the global row `256 * (n / 8) + r` after its first `n % 8 + 1` state
  tiles: the running maximum of the scores read so far, the sum of `exp (score - maximum)` over them, and the sum of
  `exp (score - maximum) * S (state, i)` over them.  At the first state tile of a batch tile the recurrence starts
  from the reset values (-inf, 0, 0); at every other point it continues from what the point before left, which
  belongs to the same batch tile.  No finiteness is used here: each point performs, entry by entry, exactly one
  update of the recurrence, whatever the values are.
-/
import proofs.«176089_j7017976562214_2_alg».proof.Proof.Carried
import proofs.«176089_j7017976562214_2_alg».proof.Proof.Blocks
import proofs.«176089_j7017976562214_2_alg».proof.Proof.Tiles
import proofs.«176089_j7017976562214_2_alg».proof.Proof.PayIdx

set_option maxRecDepth 16384

noncomputable section

open Idealize.ShloMosaic Idealize.ShloMosaic.TcCoe Idealize.SL.Sem Idealize.ShloMosaic.ValueIdx

namespace Cert.KernelIdeal.Invariant

open Cert.KernelIdeal Cert.KernelIdeal.Gen Cert.KernelIdeal.Blocks Cert.KernelIdeal.Carried Cert.KernelIdeal.PayIdx
open Cert.Spec Cert.Online

variable (m : (ℓ : Loc nD τ sig) → Buf (Elt Ideal) ℓ)

/-- The four argument arrays as the region finds them. -/
abbrev Fa (c : Dev nD) : Sf.Idx → EReal := V m c main_arg0
abbrev Sa (c : Dev nD) : Ss.Idx → EReal := V m c main_arg1
abbrev Ya (c : Dev nD) : Sf.Idx → EReal := V m c main_arg2
abbrev Wa (c : Dev nD) : Sf.Idx → EReal := V m c main_arg3

/-- The recurrence of batch row `b` and label `i` after its first `n` state tiles: running maximum, running
    normaliser, running weighted sum. -/
def st (c : Dev nD) (b : Fin 512) (i : Fin 64) (n : ℕ) (hn : n ≤ 8) : EReal × EReal × EReal :=
  after (fun j k => score (Fa m c) (Sa m c) b (tile j k)) (fun j k => Sa m c (ix2 (tile j k) i)) n hn

theorem st_zero (c : Dev nD) (b : Fin 512) (i : Fin 64) (hn : 0 ≤ 8) : st m c b i 0 hn = (⊥, 0, 0) := rfl

theorem st_succ (c : Dev nD) (b : Fin 512) (i : Fin 64) (n : ℕ) (hn : n + 1 ≤ 8) :
    st m c b i (n + 1) hn
      = upd (fun k => score (Fa m c) (Sa m c) b (tile ⟨n, hn⟩ k)) (fun k => Sa m c (ix2 (tile ⟨n, hn⟩ k) i))
          (st m c b i n (Nat.le_of_succ_le hn)) := rfl

theorem st_congr (c : Dev nD) (b b' : Fin 512) (i : Fin 64) (n n' : ℕ) (hn : n ≤ 8) (hn' : n' ≤ 8) (hb : b = b') (h : n = n') :
    st m c b i n hn = st m c b' i n' hn' := by subst hb; subst h; rfl

/-- One update at row `r` and label `i` of a block `x0` against a tile `x1`, when the block's row `r` is row `b` of
    an array `A` and the tile is tile `j` of an array `B`: the scores are those of row `b` against the tile's states. -/
theorem step_of (x0 : FVec Ideal S256x64 .f32) (x1 : FVec Ideal S4096x64 .f32) (A : Sf.Idx → EReal) (B : Ss.Idx → EReal)
    (b : Fin 512) (j : Fin 8) (m0 l0 : FVec Ideal S256x1 .f32) (a0 : FVec Ideal S256x64 .f32) (r : Fin 256) (i : Fin 64)
    (h0 : ∀ q, x0 (ix2 r q) = A (ix2 b q)) (h1 : ∀ k q, x1 (ix2 k q) = B (ix2 (tile j k) q)) :
    (k0_pay2 (F := Ideal) (k0_pay10 x0 x1 m0) (ix2 r (0 : Fin 1)),
     k0_pay13 (F := Ideal) x0 x1 m0 m0 l0 (ix2 r (0 : Fin 1)),
     k0_pay1 (F := Ideal) (k0_pay14 x0 x1 m0 m0 a0) (ix2 r i))
      = upd (fun k => score A B b (tile j k)) (fun k => B (ix2 (tile j k) i))
          (m0 (ix2 r (0 : Fin 1)), l0 (ix2 r (0 : Fin 1)), a0 (ix2 r i)) := by
  refine (step_eq x0 x1 m0 l0 a0 r i).trans ?_
  have e1 : (fun k : Fin 4096 => ∑ q : Fin 64, x0 (ix2 r q) * x1 (ix2 k q)) = fun k => score A B b (tile j k) := by
    funext k
    unfold score
    exact Finset.sum_congr rfl fun q _ => by rw [h0, h1]
  have e2 : (fun k : Fin 4096 => x1 (ix2 k i)) = fun k => B (ix2 (tile j k) i) := funext fun k => h1 k i
  rw [e1, e2]

/-- The same at a grid point: the point's blocks are read in the arrays. -/
theorem step (c : Dev nD) (t : Fin cfg0.N) (m0 l0 : FVec Ideal S256x1 .f32) (a0 : FVec Ideal S256x64 .f32) (r : Fin 256) (i : Fin 64) :
    (k0_pay2 (F := Ideal) (k0_pay10 (iblk m c 0 t) (iblk m c 1 t) m0) (ix2 r (0 : Fin 1)),
     k0_pay13 (F := Ideal) (iblk m c 0 t) (iblk m c 1 t) m0 m0 l0 (ix2 r (0 : Fin 1)),
     k0_pay1 (F := Ideal) (k0_pay14 (iblk m c 0 t) (iblk m c 1 t) m0 m0 a0) (ix2 r i))
      = upd (fun k => score (Fa m c) (Sa m c) (row t r) (tile (kv t) k)) (fun k => Sa m c (ix2 (tile (kv t) k) i))
          (m0 (ix2 r (0 : Fin 1)), l0 (ix2 r (0 : Fin 1)), a0 (ix2 r i)) :=
  step_of (iblk m c 0 t) (iblk m c 1 t) (Fa m c) (Sa m c) (row t r) (kv t) m0 l0 a0 r i
    (fun q => fblk m c t r q) (fun k q => sblk m c t k q)

/-- THE INVARIANT.  After point `n` the carried buffers hold, at row `r` (and label `i` for the weighted sum), the
    recurrence of the global row after the state tiles read so far in its batch tile. -/
theorem carried_eq (c : Dev nD) : ∀ (n : ℕ) (h : n < cfg0.N) (r : Fin 256) (i : Fin 64),
    ((outsAt0 m c n h).2.2.1 (ix2 r (0 : Fin 1)), (outsAt0 m c n h).2.2.2.1 (ix2 r (0 : Fin 1)), (outsAt0 m c n h).2.2.2.2 (ix2 r i))
      = st m c (row ⟨n, h⟩ r) i (n % 8 + 1) (Nat.succ_le_of_lt (Nat.mod_lt _ (by norm_num)))
  | n, h, r, i => by
    have h16 : n < 16 := lt16 ⟨n, h⟩
    have hkv : kv ⟨n, h⟩ = ⟨n % 8, Nat.succ_le_of_lt (Nat.mod_lt _ (by norm_num))⟩ := rfl
    by_cases h0 : n % 8 = 0
    · have h1 : ¬n % 8 = 7 := by omega
      have e := step m c ⟨n, h⟩ (k0_pay5 (F := Ideal)) (k0_pay6 (F := Ideal)) (k0_pay7 (F := Ideal)) r i
      rw [reset_eq] at e
      refine (Prod.ext (congrFun (max_first m c ⟨n, h⟩ h0 h1) _)
        (Prod.ext (congrFun (norm_first m c ⟨n, h⟩ h0 h1) _) (congrFun (acc_first m c ⟨n, h⟩ h0 h1) _))).trans (e.trans ?_)
      rw [st_succ, hkv]
      exact congrArg (upd _ _) ((st_zero m c _ i (Nat.zero_le _)).symm.trans (st_congr m c _ _ i _ _ _ _ rfl h0.symm))
    · have hpos : 0 < n := by omega
      have hprev : n - 1 < cfg0.N := Nat.lt_of_le_of_lt (Nat.sub_le _ _) h
      have ih := carried_eq c (n - 1) hprev r i
      have hrow : row ⟨n - 1, hprev⟩ r = row ⟨n, h⟩ r := Fin.ext (by show 256 * ((n - 1) / 8) + r.val = 256 * (n / 8) + r.val; omega)
      have hst : st m c (row ⟨n - 1, hprev⟩ r) i ((n - 1) % 8 + 1) (Nat.succ_le_of_lt (Nat.mod_lt _ (by norm_num)))
          = st m c (row ⟨n, h⟩ r) i (n % 8) (Nat.le_of_lt (Nat.mod_lt _ (by norm_num))) :=
        st_congr m c _ _ i _ _ _ _ hrow (by omega)
      have e := step m c ⟨n, h⟩ (outsAt0 m c (n - 1) hprev).2.2.1 (outsAt0 m c (n - 1) hprev).2.2.2.1 (outsAt0 m c (n - 1) hprev).2.2.2.2 r i
      rw [ih, hst] at e
      have fin : upd (fun k => score (Fa m c) (Sa m c) (row ⟨n, h⟩ r) (tile (kv ⟨n, h⟩) k)) (fun k => Sa m c (ix2 (tile (kv ⟨n, h⟩) k) i))
            (st m c (row ⟨n, h⟩ r) i (n % 8) (Nat.le_of_lt (Nat.mod_lt _ (by norm_num))))
          = st m c (row ⟨n, h⟩ r) i (n % 8 + 1) (Nat.succ_le_of_lt (Nat.mod_lt _ (by norm_num))) := by
        rw [st_succ, hkv]
      by_cases h1 : n % 8 = 7
      · exact (Prod.ext (congrFun (max_last m c ⟨n, h⟩ h0 h1) _)
          (Prod.ext (congrFun (norm_last m c ⟨n, h⟩ h0 h1) _) (congrFun (acc_last m c ⟨n, h⟩ h0 h1) _))).trans (e.trans fin)
      · exact (Prod.ext (congrFun (max_mid m c ⟨n, h⟩ h0 h1) _)
          (Prod.ext (congrFun (norm_mid m c ⟨n, h⟩ h0 h1) _) (congrFun (acc_mid m c ⟨n, h⟩ h0 h1) _))).trans (e.trans fin)
  termination_by n => n
  decreasing_by omega

end Cert.KernelIdeal.Invariant

end
-- ==== Proof.Tail.lean ====
/-
  Both programs finish with the same three operations on the [512, 64] array of cross-entropy entries: the sum over the
  batch rows of each label's column, from 0; the division of the 64 sums by the f32 word of 512; the sum of the 64
  quotients, from 0.  Here that composition is ONE function of the array of entries, and each program's loss is that
  function of its own array, so equal arrays of entries give equal losses without reading any of the arithmetic.
-/
import proofs.«176089_j7017976562214_2_alg».proof.Proof.Gen.KernelIdeal.Frame
import proofs.«176089_j7017976562214_2_alg».proof.Proof.Gen.ReferenceIdeal.Read
import Idealize.ShloMosaic.Lib.StableHlo.Run
import Idealize.ShloMosaic.Lib.Pipeline.Value

noncomputable section

namespace Cert.Tail

open Idealize.ShloMosaic Idealize.ShloMosaic.TcCoe Idealize.SL.Sem Idealize.ShloMosaic.StableHlo

section Kernel
open Cert.KernelIdeal Cert.KernelIdeal.Gen

/-- The mean-and-sum of an array of entries: column sums over the batch from 0, each divided by 512, summed from 0. -/
def tail (x : FVec Ideal Cert.KernelIdeal.S512x64 .f32) : FVec Ideal Cert.KernelIdeal.S_ .f32 :=
  Host.reduceAdd (F := Ideal)
    (Host.divf (F := Ideal)
      (Host.reduceAdd (F := Ideal) x (constant (F := Ideal) S_ .f32 0x00000000#32) reducesTo_S512x64_S64_d0 h_S_)
      (broadcastInDim S64 ![] bcast_S_S64 (constant (F := Ideal) S_ .f32 0x44000000#32)))
    (constant (F := Ideal) S_ .f32 0x00000000#32) reducesTo_S64_S_d0 h_S_

/-- The kernel program's loss: the operations after the region read the region's second result, the array the sixth
    window writes back, and nothing else of what the region leaves, so their last result is `tail` of that array. -/
theorem kernel_loss (m : (ℓ : Loc nD τ sig) → Buf (Elt Ideal) ℓ) (c : Dev nD) :
    Pipeline.afterTail₀ cfgs (dats m) 0 (V0 m) [hostOps1] c main_v4 = tail ((dats m 0 c).arrAt 5 cfg0.N) := by
  unfold Pipeline.afterTail₀
  show StableHlo.after hostOps1 _ (Proc.devRef .tc main_v4) = _
  after_results
  exact congrArg tail (Pipeline.withArrays_arr spec0 launch0.win.arr_inj c _ _ 5)

end Kernel

section Reference
open Cert.ReferenceIdeal Cert.ReferenceIdeal.Gen Cert.ReferenceIdeal.Read

/-- The reference's loss is `tail` of its array of entries: its last three stages are the same operations over the same
    literal shapes and words. -/
theorem ref_loss (f y w : (⟨Cert.ReferenceIdeal.S512x64, .f32⟩ : BufTy).Contents (Elt Ideal))
    (S : (⟨Cert.ReferenceIdeal.S32768x64, .f32⟩ : BufTy).Contents (Elt Ideal)) :
    val_main_v29 (F := Ideal) f S y w = tail (val_main_v25 (F := Ideal) f S y w) := rfl

end Reference

end Cert.Tail

end
-- ==== Proof.Result.lean ====
/-
  The two result arrays of the kernel, and its run.

  At the last state tile of a batch tile the recurrence has read all eight tiles, so for real `f` and `S` the
  quotient of the weighted sum by the normaliser is the softmax-weighted sum over all 32768 states: the margin.
  The point stores that quotient in its block of the first result and the cross-entropy entries of it in its block
  of the second.  Only those two points (one per batch tile) write their blocks back, and their blocks are rows
  0 … 255 and 256 … 511: together they cover both arrays.  So after the run the first result is the array of
  margins and the second the array of cross-entropy entries; the loss is the host's tail applied to the latter.
-/
import proofs.«176089_j7017976562214_2_alg».proof.Proof.Invariant
import proofs.«176089_j7017976562214_2_alg».proof.Proof.Tail
import Idealize.ShloMosaic.Lib.Pipeline.Value

set_option maxRecDepth 16384

noncomputable section

open Idealize.ShloMosaic Idealize.ShloMosaic.TcCoe Idealize.SL.Sem Idealize.ShloMosaic.ValueIdx

namespace Cert.KernelIdeal.Result

open Cert.KernelIdeal Cert.KernelIdeal.Gen Cert.KernelIdeal.Blocks Cert.KernelIdeal.Carried Cert.KernelIdeal.PayIdx
open Cert.KernelIdeal.Invariant Cert.Spec Cert.Online

variable (m : (ℓ : Loc nD τ sig) → Buf (Elt Ideal) ℓ) (ρ : Dev nD → PrngReg)

/-- At the last state tile of a batch tile the carried buffers hold the recurrence after all eight tiles. -/
theorem full (c : Dev nD) (t : Fin cfg0.N) (h7 : t.val % 8 = 7) (r : Fin 256) (i : Fin 64) :
    ((outsAt0 m c t.val t.isLt).2.2.1 (ix2 r (0 : Fin 1)), (outsAt0 m c t.val t.isLt).2.2.2.1 (ix2 r (0 : Fin 1)),
      (outsAt0 m c t.val t.isLt).2.2.2.2 (ix2 r i)) = st m c (row t r) i 8 le_rfl :=
  (carried_eq m c t.val t.isLt r i).trans (st_congr m c _ _ i _ _ _ _ rfl (by omega))

/-- So, for real `f` and `S`, the quotient of the final weighted sum by the final normaliser is the margin. -/
theorem quotient_at (c : Dev nD) (hf : ∀ x, ∃ q : ℝ, Fa m c x = (q : EReal)) (hS : ∀ x, ∃ q : ℝ, Sa m c x = (q : EReal))
    (t : Fin cfg0.N) (h7 : t.val % 8 = 7) (r : Fin 256) (i : Fin 64) :
    Ideal.div ((outsAt0 m c t.val t.isLt).2.2.2.2 (ix2 r i)) ((outsAt0 m c t.val t.isLt).2.2.2.1 (ix2 r (0 : Fin 1)))
      = margin (Fa m c) (Sa m c) (ix2 (row t r) i) := by
  have hfull := full m c t h7 r i
  rw [show (outsAt0 m c t.val t.isLt).2.2.2.2 (ix2 r i) = (st m c (row t r) i 8 le_rfl).2.2 from congrArg (fun p => p.2.2) hfull,
    show (outsAt0 m c t.val t.isLt).2.2.2.1 (ix2 r (0 : Fin 1)) = (st m c (row t r) i 8 le_rfl).2.1 from congrArg (fun p => p.2.1) hfull]
  exact Cert.Tiles.margin_online (Fa m c) (Sa m c) hf hS (row t r) i

/-- The first output block at a last tile is the block of margins. -/
theorem margin_at (c : Dev nD) (hf : ∀ x, ∃ q : ℝ, Fa m c x = (q : EReal)) (hS : ∀ x, ∃ q : ℝ, Sa m c x = (q : EReal))
    (t : Fin cfg0.N) (h7 : t.val % 8 = 7) (r : Fin 256) (i : Fin 64) :
    (outsAt0 m c t.val t.isLt).1 (ix2 r i) = margin (Fa m c) (Sa m c) (ix2 (row t r) i) := by
  have h0 : ¬t.val % 8 = 0 := by omega
  exact (congrFun (margin_of_carried m c t h0 h7) (ix2 r i)).trans
    ((margin_eq _ _ r i).trans (quotient_at m c hf hS t h7 r i))

/-- The second output block at a last tile is the block of cross-entropy entries of the margins. -/
theorem entries_at (c : Dev nD) (hf : ∀ x, ∃ q : ℝ, Fa m c x = (q : EReal)) (hS : ∀ x, ∃ q : ℝ, Sa m c x = (q : EReal))
    (t : Fin cfg0.N) (h7 : t.val % 8 = 7) (r : Fin 256) (i : Fin 64) :
    (outsAt0 m c t.val t.isLt).2.1 (ix2 r i) = bceArr (margin (Fa m c) (Sa m c)) (Ya m c) (Wa m c) (ix2 (row t r) i) := by
  have h0 : ¬t.val % 8 = 0 := by omega
  refine (congrFun (entries_of_carried m c t h0 h7) (ix2 r i)).trans ((entries_eq _ _ _ _ r i).trans ?_)
  rw [quotient_at m c hf hS t h7 r i, yblk, wblk]
  rfl

/-- The index, in its array, of entry `(r, i)` of an output block of point `t`. -/
theorem emb4 (t : Fin cfg0.N) (r : Fin 256) (i : Fin 64) : ((cfg0.win 4).blk t).view.emb (ix2 r i) = ix2 (row t r) i := by
  funext a
  apply Fin.ext
  match a with
  | ⟨0, _⟩ =>
    show win0_4.index t 0 * 256 + 1 * r.val = 256 * (t.val / 8) + r.val
    rw [(idx4 t).1]; omega
  | ⟨1, _⟩ =>
    show win0_4.index t 1 * 64 + 1 * i.val = i.val
    rw [(idx4 t).2]; omega

theorem emb5 (t : Fin cfg0.N) (r : Fin 256) (i : Fin 64) : ((cfg0.win 5).blk t).view.emb (ix2 r i) = ix2 (row t r) i := by
  funext a
  apply Fin.ext
  match a with
  | ⟨0, _⟩ =>
    show win0_5.index t 0 * 256 + 1 * r.val = 256 * (t.val / 8) + r.val
    rw [(idx5 t).1]; omega
  | ⟨1, _⟩ =>
    show win0_5.index t 1 * 64 + 1 * i.val = i.val
    rw [(idx5 t).2]; omega

/-- Writing back a whole block: the part of a block that a write-back moves is the block itself, entry by entry. -/
theorem cut4 (t : Fin cfg0.N) (X : Vec Ideal S256x64 .f32) (r : Fin 256) (i : Fin 64) :
    (cfg0.win 4).cut (grid0.coords t) X (ix2 r i) = X (ix2 r i) := by
  show X ((cfg0.win 4).xinj (grid0.coords t) (ix2 r i)) = X (ix2 r i)
  refine congrArg X ?_
  funext a
  apply Fin.ext
  match a with
  | ⟨0, _⟩ => rfl
  | ⟨1, _⟩ => rfl

theorem cut5 (t : Fin cfg0.N) (X : Vec Ideal S256x64 .f32) (r : Fin 256) (i : Fin 64) :
    (cfg0.win 5).cut (grid0.coords t) X (ix2 r i) = X (ix2 r i) := by
  show X ((cfg0.win 5).xinj (grid0.coords t) (ix2 r i)) = X (ix2 r i)
  refine congrArg X ?_
  funext a
  apply Fin.ext
  match a with
  | ⟨0, _⟩ => rfl
  | ⟨1, _⟩ => rfl

/-- Block `t` of a [512, 64] array read at `(r, i)` is the array at row `256 * (t / 8) + r`: both output windows. -/
theorem read4 (c : Dev nD) (t : Fin cfg0.N) (G : Buf (Elt Ideal) ((c.tc : Thread nD τ).loc main_v0_0)) (r : Fin 256) (i : Fin 64) :
    ((cfg0.win 4).blk t).view.read (Elt Ideal) G (ix2 r i) = G (ix2 (row t r) i) := by
  rw [View.read_apply]
  show G (((cfg0.win 4).blk t).view.emb (ix2 r i)) = G (ix2 (row t r) i)
  rw [emb4]

theorem read5 (c : Dev nD) (t : Fin cfg0.N) (G : Buf (Elt Ideal) ((c.tc : Thread nD τ).loc main_v0_1)) (r : Fin 256) (i : Fin 64) :
    ((cfg0.win 5).blk t).view.read (Elt Ideal) G (ix2 r i) = G (ix2 (row t r) i) := by
  rw [View.read_apply]
  show G (((cfg0.win 5).blk t).view.emb (ix2 r i)) = G (ix2 (row t r) i)
  rw [emb5]

/-- What a last-tile point writes back through the first output window is its block of the array of margins. -/
theorem flushed4 (c : Dev nD) (hf : ∀ x, ∃ q : ℝ, Fa m c x = (q : EReal)) (hS : ∀ x, ∃ q : ℝ, Sa m c x = (q : EReal))
    (t : Fin cfg0.N) (hfl : (cfg0.win 4).flush t = true) :
    (dats m 0 c).flushed 4 t = ((cfg0.win 4).blk t).view.read (Elt Ideal) (margin (Fa m c) (Sa m c)) := by
  have h7 : t.val % 8 = 7 := (flush0_4 t).mp hfl
  show (cfg0.win 4).cut (grid0.coords t) ((dats m 0 c).after 4 t) = _
  rw [after0_4]
  funext j
  obtain ⟨r, i, rfl⟩ : ∃ (r : Fin 256) (i : Fin 64), j = ix2 r i := ⟨j 0, j 1, eq_ix2 j⟩
  exact (cut4 t _ r i).trans ((margin_at m c hf hS t h7 r i).trans (read4 c t _ r i).symm)

/-- What a last-tile point writes back through the second output window is its block of the array of entries. -/
theorem flushed5 (c : Dev nD) (hf : ∀ x, ∃ q : ℝ, Fa m c x = (q : EReal)) (hS : ∀ x, ∃ q : ℝ, Sa m c x = (q : EReal))
    (t : Fin cfg0.N) (hfl : (cfg0.win 5).flush t = true) :
    (dats m 0 c).flushed 5 t = ((cfg0.win 5).blk t).view.read (Elt Ideal) (bceArr (margin (Fa m c) (Sa m c)) (Ya m c) (Wa m c)) := by
  have h7 : t.val % 8 = 7 := (flush0_5 t).mp hfl
  show (cfg0.win 5).cut (grid0.coords t) ((dats m 0 c).after 5 t) = _
  rw [after0_5]
  funext j
  obtain ⟨r, i, rfl⟩ : ∃ (r : Fin 256) (i : Fin 64), j = ix2 r i := ⟨j 0, j 1, eq_ix2 j⟩
  exact (cut5 t _ r i).trans ((entries_at m c hf hS t h7 r i).trans (read5 c t _ r i).symm)

/-- Every row of a [512, 64] result lies in the block of the last-tile point of its batch tile. -/
theorem cover4 (c : Dev nD) (x : ((cfg0.win 4).arr.view.loc (c.tc : Thread nD τ)).2.ty.Idx) :
    ∃ t : Fin cfg0.N, (cfg0.win 4).flush t = true ∧ x ∈ ((cfg0.win 4).blk t).view.set := by
  have hx0 : (x 0).val < 512 := (x 0).isLt
  have hx1 : (x 1).val < 64 := (x 1).isLt
  have hN : cfg0.N = 16 := N_0
  have hlt : 8 * ((x 0).val / 256) + 7 < cfg0.N := by omega
  refine ⟨⟨8 * ((x 0).val / 256) + 7, hlt⟩, (flush0_4 _).mpr (by show (8 * ((x 0).val / 256) + 7) % 8 = 7; omega), ?_⟩
  show x ∈ ((View.whole main_v0_0).slice (win0_4.rect ⟨8 * ((x 0).val / 256) + 7, hlt⟩)).set
  rw [View.set_slice_whole, Rect.mem_set_unit]
  intro a
  match a with
  | ⟨0, _⟩ =>
    show win0_4.index ⟨8 * ((x 0).val / 256) + 7, hlt⟩ 0 * 256 ≤ (x 0).val ∧ (x 0).val < win0_4.index ⟨8 * ((x 0).val / 256) + 7, hlt⟩ 0 * 256 + 256
    rw [(idx4 ⟨8 * ((x 0).val / 256) + 7, hlt⟩).1]
    show (8 * ((x 0).val / 256) + 7) / 8 * 256 ≤ (x 0).val ∧ (x 0).val < (8 * ((x 0).val / 256) + 7) / 8 * 256 + 256
    omega
  | ⟨1, _⟩ =>
    show win0_4.index ⟨8 * ((x 0).val / 256) + 7, hlt⟩ 1 * 64 ≤ (x 1).val ∧ (x 1).val < win0_4.index ⟨8 * ((x 0).val / 256) + 7, hlt⟩ 1 * 64 + 64
    rw [(idx4 ⟨8 * ((x 0).val / 256) + 7, hlt⟩).2]; omega

theorem cover5 (c : Dev nD) (x : ((cfg0.win 5).arr.view.loc (c.tc : Thread nD τ)).2.ty.Idx) :
    ∃ t : Fin cfg0.N, (cfg0.win 5).flush t = true ∧ x ∈ ((cfg0.win 5).blk t).view.set := by
  have hx0 : (x 0).val < 512 := (x 0).isLt
  have hx1 : (x 1).val < 64 := (x 1).isLt
  have hN : cfg0.N = 16 := N_0
  have hlt : 8 * ((x 0).val / 256) + 7 < cfg0.N := by omega
  refine ⟨⟨8 * ((x 0).val / 256) + 7, hlt⟩, (flush0_5 _).mpr (by show (8 * ((x 0).val / 256) + 7) % 8 = 7; omega), ?_⟩
  show x ∈ ((View.whole main_v0_1).slice (win0_5.rect ⟨8 * ((x 0).val / 256) + 7, hlt⟩)).set
  rw [View.set_slice_whole, Rect.mem_set_unit]
  intro a
  match a with
  | ⟨0, _⟩ =>
    show win0_5.index ⟨8 * ((x 0).val / 256) + 7, hlt⟩ 0 * 256 ≤ (x 0).val ∧ (x 0).val < win0_5.index ⟨8 * ((x 0).val / 256) + 7, hlt⟩ 0 * 256 + 256
    rw [(idx5 ⟨8 * ((x 0).val / 256) + 7, hlt⟩).1]
    show (8 * ((x 0).val / 256) + 7) / 8 * 256 ≤ (x 0).val ∧ (x 0).val < (8 * ((x 0).val / 256) + 7) / 8 * 256 + 256
    omega
  | ⟨1, _⟩ =>
    show win0_5.index ⟨8 * ((x 0).val / 256) + 7, hlt⟩ 1 * 64 ≤ (x 1).val ∧ (x 1).val < win0_5.index ⟨8 * ((x 0).val / 256) + 7, hlt⟩ 1 * 64 + 64
    rw [(idx5 ⟨8 * ((x 0).val / 256) + 7, hlt⟩).2]; omega

/-- The array of margins after the run. -/
theorem final4 (c : Dev nD) (hf : ∀ x, ∃ q : ℝ, Fa m c x = (q : EReal)) (hS : ∀ x, ∃ q : ℝ, Sa m c x = (q : EReal)) :
    (dats m 0 c).arrAt 4 cfg0.N = margin (Fa m c) (Sa m c) :=
  (dats m 0 c).arrAt_eq_of_cover 4 (margin (Fa m c) (Sa m c)) (fun t h => flushed4 m c hf hS t h) (cover4 c)

/-- The array of cross-entropy entries after the run. -/
theorem final5 (c : Dev nD) (hf : ∀ x, ∃ q : ℝ, Fa m c x = (q : EReal)) (hS : ∀ x, ∃ q : ℝ, Sa m c x = (q : EReal)) :
    (dats m 0 c).arrAt 5 cfg0.N = bceArr (margin (Fa m c) (Sa m c)) (Ya m c) (Wa m c) :=
  (dats m 0 c).arrAt_eq_of_cover 5 (bceArr (margin (Fa m c) (Sa m c)) (Ya m c) (Wa m c)) (fun t h => flushed5 m c hf hS t h) (cover5 c)

/-- THE RUN, READ.  For real `f` and `S` every weakly fair execution of the kernel's program terminates with the loss
    at the host's tail of the cross-entropy entries of the margins, the first array result at the margins, and the four
    arguments unchanged. -/
theorem run (hf : ∀ c x, ∃ q : ℝ, Fa m c x = (q : EReal)) (hS : ∀ c x, ∃ q : ℝ, Sa m c x = (q : EReal)) :
    θ_run defs (onTc (τ := τ) (main (F := Ideal))) ⟨m, fun _ => 0, ρ⟩ fun r => ∀ c : Dev nD,
      r.2.mem ((c.tc : Thread nD τ).loc main_v4) = Cert.Tail.tail (bceArr (margin (Fa m c) (Sa m c)) (Ya m c) (Wa m c))
      ∧ r.2.mem ((c.tc : Thread nD τ).loc main_v0_0) = margin (Fa m c) (Sa m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 rfl (by decide))).trans
        ((Cert.Tail.kernel_loss m c).trans (congrArg Cert.Tail.tail (final5 m c (hf c) (hS c)))),
      ((h c).1 4).trans (final4 m c (hf c) (hS c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.RefSpec.lean ====
/-
  The reference program's stages, read index by index on the extended reals, are the functions of the specification.

  The score array is laid out state-by-batch: entry (s, b) is the inner product of row s of S with row b of f, which
  is the specification's score of state s for batch row b once each product is commuted.  The running maximum along
  the state axis starts from -inf, the least extended real, so it is the supremum of the column; taking its maximum
  with a broadcast -inf changes nothing.  Subtracting that top, exponentiating, summing along the state axis from the
  initial value 0 and dividing give the softmax weights, and the last contraction over the states against S is the
  margin.  The cross-entropy entries are then pointwise in the margin, the label and the mask.
-/
import proofs.«176089_j7017976562214_2_alg».proof.Proof.Gen.ReferenceIdeal.Read
import proofs.«176089_j7017976562214_2_alg».proof.Proof.Spec

noncomputable section

namespace Cert.RefSpec

open Cert.ReferenceIdeal Cert.ReferenceIdeal.Gen Cert.ReferenceIdeal.Read Idealize.ShloMosaic Idealize.ShloMosaic.ValueIdx
open scoped BigOperators

/-- The f32 word with sign bit set, all-ones exponent and zero fraction denotes -inf, the least extended real. -/
theorem negInf_eq_bot : Ideal.ofBits .f32 0xFF800000#32 = (⊥ : EReal) := by
  simp [Ideal.ofBits, Ideal.ieee]

/-- Folding `max` from the least element over a finite family is the family's supremum. -/
theorem fold_max_bot {ι : Type} (s : Finset ι) (g : ι → EReal) : s.fold max ⊥ g = s.sup g := rfl

/-- The [32768, 512] array loses its state axis to become a [512] array. -/
theorem reduces_states : S32768x512.Reduces [0] S512 := by decide

/-- Inserting state `k` on the dropped axis above batch row `b` gives the entry (k, b). -/
theorem lift_states (b : Fin 512) (k : Fin 32768) : reduces_states.lift (ix1 b) k = ix2 k b :=
  funext fun a => Fin.ext (by match a with | ⟨0, _⟩ => rfl | ⟨1, _⟩ => rfl)

section
variable (f : (⟨S512x64, .f32⟩ : BufTy).Contents (Elt Ideal)) (S : (⟨S32768x64, .f32⟩ : BufTy).Contents (Elt Ideal))

/-- Entry (s, b) of the first contraction is the score of state `s` for batch row `b`. -/
theorem score_at (s : Fin 32768) (b : Fin 512) :
    val_main_v0 (F := Ideal) f S (ix2 s b) = Cert.Spec.score f S b s := by
  rw [val_main_v0_apply]
  unfold Cert.Spec.score
  refine Finset.sum_congr rfl fun k _ => ?_
  have el : lidx_main_v0 (ix2 s b) k = ix2 s k :=
    funext fun a => Fin.ext (by match a with | ⟨0, _⟩ => rfl | ⟨1, _⟩ => rfl)
  have er : ridx_main_v0 (ix2 s b) k = ix2 b k :=
    funext fun a => Fin.ext (by match a with | ⟨0, _⟩ => rfl | ⟨1, _⟩ => rfl)
  rw [el, er, mul_comm]

/-- The maximum along the state axis from -inf is, at batch row `b`, the supremum of that row's scores. -/
theorem colmax_at (b : Fin 512) :
    val_main_v1 (F := Ideal) f S (ix1 b) = Cert.Spec.top f S b := by
  unfold val_main_v1
  rw [Host.reduce_eq_fold_single FloatOps.maximumf _ _ reducesTo_S32768x512_S512_d0 reduces_states h_S_]
  rw [show val_main_cst (F := Ideal) (Shape.Idx.first h_S_) = (⊥ : EReal) from negInf_eq_bot]
  have e : (val_main_v0 (F := Ideal) f S ∘ reduces_states.lift (ix1 b)) = Cert.Spec.score f S b :=
    funext fun k => (congrArg (val_main_v0 (F := Ideal) f S) (lift_states b k)).trans (score_at f S k b)
  rw [e]
  exact fold_max_bot _ _

/-- The maximum with a broadcast -inf leaves the top unchanged. -/
theorem top_at (b : Fin 512) :
    val_main_v3 (F := Ideal) f S (ix1 b) = Cert.Spec.top f S b := by
  rw [val_main_v3_apply, val_main_v2_apply, val_main_cst_0_apply, colmax_at, Ideal.ofBits_def, negInf_eq_bot,
    Ideal.maximumf_def]
  exact max_bot_left _

/-- The top, broadcast back over the states. -/
theorem top_bcast_at (s : Fin 32768) (b : Fin 512) :
    val_main_v5 (F := Ideal) f S (ix2 s b) = Cert.Spec.top f S b := by
  rw [val_main_v5_apply, val_main_v4_apply]
  have e : idx_main_v4 (idx_main_v5 (ix2 s b)) = ix1 b :=
    funext fun a => Fin.ext (by match a with | ⟨0, _⟩ => rfl)
  rw [e, top_at]

/-- The exponential of the score below the top. -/
theorem exp_at (s : Fin 32768) (b : Fin 512) :
    val_main_v7 (F := Ideal) f S (ix2 s b) = Ideal.exp (Cert.Spec.score f S b s - Cert.Spec.top f S b) := by
  rw [val_main_v7_apply, val_main_v6_apply, score_at, top_bcast_at, Ideal.subf_def, Ideal.hostUnary_exp_def]

/-- The sum of those exponentials along the state axis, from the initial value 0, is the normaliser. -/
theorem norm_at (b : Fin 512) :
    val_main_v8 (F := Ideal) f S (ix1 b) = Cert.Spec.norm f S b := by
  rw [val_main_v8_apply, val_main_cst_1_apply, Ideal.ofBits_def, Ideal.ofBits_zero_f32, zero_add]
  unfold Cert.Spec.norm
  refine Finset.sum_congr rfl fun k _ => ?_
  have e : idx_main_v8 (ix1 b) k = ix2 k b :=
    funext fun a => Fin.ext (by match a with | ⟨0, _⟩ => rfl | ⟨1, _⟩ => rfl)
  rw [e, exp_at]

/-- The normaliser, broadcast back over the states. -/
theorem norm_bcast_at (s : Fin 32768) (b : Fin 512) :
    val_main_v10 (F := Ideal) f S (ix2 s b) = Cert.Spec.norm f S b := by
  rw [val_main_v10_apply, val_main_v9_apply]
  have e : idx_main_v9 (idx_main_v10 (ix2 s b)) = ix1 b :=
    funext fun a => Fin.ext (by match a with | ⟨0, _⟩ => rfl)
  rw [e, norm_at]

/-- The softmax weight of state `s` for batch row `b`. -/
theorem weight_at (s : Fin 32768) (b : Fin 512) :
    val_main_v11 (F := Ideal) f S (ix2 s b)
      = Ideal.div (Ideal.exp (Cert.Spec.score f S b s - Cert.Spec.top f S b)) (Cert.Spec.norm f S b) := by
  rw [val_main_v11_apply, exp_at, norm_bcast_at, Ideal.hostDivf_def]

/-- The reference's margins are the specification's. -/
theorem ref_margin : val_main_v12 (F := Ideal) f S = Cert.Spec.margin f S := by
  funext x
  obtain ⟨b, i, rfl⟩ : ∃ (b : Fin 512) (i : Fin 64), x = ix2 b i := ⟨x 0, x 1, eq_ix2 x⟩
  rw [val_main_v12_apply]
  show _ = ∑ s : Fin 32768, Ideal.div (Ideal.exp (Cert.Spec.score f S b s - Cert.Spec.top f S b)) (Cert.Spec.norm f S b) * S (ix2 s i)
  refine Finset.sum_congr rfl fun k _ => ?_
  have el : lidx_main_v12 (ix2 b i) k = ix2 k b :=
    funext fun a => Fin.ext (by match a with | ⟨0, _⟩ => rfl | ⟨1, _⟩ => rfl)
  have er : ridx_main_v12 (ix2 b i) k = ix2 k i :=
    funext fun a => Fin.ext (by match a with | ⟨0, _⟩ => rfl | ⟨1, _⟩ => rfl)
  rw [el, er, weight_at]

/-- The reference's cross-entropy entries are the specification's entry function of its own margins, the label and
    the mask: every stage after the margins is pointwise, the two floors are broadcasts of the word of -100 (the
    conversion in front of each is the identity) and the two units broadcasts of the word of 1. -/
theorem ref_bce (y w : (⟨S512x64, .f32⟩ : BufTy).Contents (Elt Ideal)) :
    val_main_v25 (F := Ideal) f S y w = Cert.Spec.bceArr (val_main_v12 (F := Ideal) f S) y w := by
  funext x
  rw [val_main_v25_apply, val_main_v24_apply, val_main_v23_apply, val_main_v19_apply, val_main_v22_apply,
    val_main_v14_apply, val_main_v18_apply, val_main_v21_apply, val_main_v13_apply, val_main_v17_apply,
    val_main_v16_apply, val_main_call0_v1_apply, val_main_call0_v0_apply, val_main_cst_2_apply,
    val_main_call1_v1_apply, val_main_call1_v0_apply, val_main_cst_4_apply, val_main_v15_apply,
    val_main_cst_3_apply, val_main_v20_apply, val_main_cst_5_apply]
  simp only [Ideal.mulf_def, Ideal.hostNegf_def, Ideal.negf_def, Ideal.addf_def, Ideal.subf_def, Ideal.maximumf_def,
    Ideal.hostUnary_log_def, Ideal.ofBits_def]
  rfl

end

end Cert.RefSpec

end
-- ==== Proof.Finite.lean ====
/-
  Under the finiteness precondition every entry of the first two arguments is a real number.

  The precondition is the conjunction, over the four arguments, of "every entry has absolute value below +inf".  A
  conjunction of one-bit words is 1 only when each conjunct is; a reduction by "and" over all axes from 1 is 1 only when
  every entry is; and an extended real whose absolute value max(x, -x) lies strictly below the greatest element is
  neither infinity, hence the image of a real.
-/
import proofs.«176089_j7017976562214_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Cert.Pre_finite_inputs Idealize.ShloMosaic

/-- The scalar shape has one index. -/
instance : Subsingleton S_.Idx := ⟨fun a b => funext fun d => d.elim0⟩

/-- The f32 word with clear sign bit, all-ones exponent and zero fraction denotes +inf, the greatest extended real. -/
theorem posInf_eq_top : Ideal.ofBits .f32 0x7F800000#32 = (⊤ : EReal) := by
  simp [Ideal.ofBits, Ideal.ieee]

/-- An extended real whose absolute value is strictly below the greatest element is a real. -/
theorem real_of_abs_lt_top (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- One entry of the comparison "absolute value below the broadcast +inf" being 1 makes that entry of the array real. -/
theorem real_of_entry {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ r : ℝ, x i = (r : EReal) := by
  have hinf : broadcastInDim s ![] hb (constant (F := Ideal) S_ .f32 0x7F800000#32) i = (⊤ : EReal) := by
    rw [broadcastInDim_apply _ hb _ i (fun a => a.elim0) (fun a => a.elim0)]
    exact posInf_eq_top
  refine real_of_abs_lt_top (x i) ?_
  have e' : Ideal.cmp .olt (max (x i) (-(x i))) (broadcastInDim s ![] hb (constant (F := Ideal) S_ .f32 0x7F800000#32) i) = 1#1 := e
  rw [hinf] at e'
  exact e'

/-- The precondition makes every entry of the first and of the second argument a real number. -/
theorem real_of_pre [Facts] (x0 : FVec Ideal S512x64 .f32) (x1 : FVec Ideal S32768x64 .f32) (x2 x3 : FVec Ideal S512x64 .f32)
    (hp : fn (F := Ideal) x0 x1 x2 x3 = fun _ => 1#1) :
    (∀ i, ∃ r : ℝ, x0 i = (r : EReal)) ∧ (∀ i, ∃ r : ℝ, x1 i = (r : EReal)) := by
  have h := congrFun hp ValueIdx.ix0
  dsimp only [fn, fn_part1] at h
  obtain ⟨h012, -⟩ := IntOp.andi_eq_one.1 (show IntOp.andi _ _ = 1#1 from h)
  obtain ⟨h01, -⟩ := IntOp.andi_eq_one.1 (show IntOp.andi _ _ = 1#1 from h012)
  obtain ⟨h0, h1⟩ := IntOp.andi_eq_one.1 (show IntOp.andi _ _ = 1#1 from h01)
  exact ⟨fun i => real_of_entry x0 _ i (Host.reduce_andi_all _ _ _ _ _ h0 i),
    fun i => real_of_entry x1 _ i (Host.reduce_andi_all _ _ _ _ _ h1 i)⟩

end Cert.Finite

end
-- ==== Proof.lean ====
/-
  The claim of this certificate, assembled.

  The kernel computes, for each of 512 batch rows, the softmax over 32768 states of the scores `⟨f b, S s⟩` without ever
  holding a whole row of scores: it reads the states in eight tiles of 4096 and keeps a running maximum, a running
  normaliser and a running weighted sum of the rows of `S`, rescaling the last two by `exp (old maximum - new maximum)`
  whenever the maximum rises.  After the eighth tile the weighted sum divided by the normaliser is the margin, from which
  the same grid point computes the masked cross-entropy entries; the loss is then the host's mean over the batch and
  sum over the labels of those entries.  The reference takes the plain softmax of the whole score matrix, multiplies it
  into `S`, and computes the same entries and the same mean and sum.

  Over the extended reals the two agree whenever `f` and `S` are real: then every score is real, the rescaling law
  `exp (M - M') * exp (x - M) = exp (x - M')` holds, the normaliser is a positive real, and
  `(∑ e s * S s i) / L = ∑ (e s / L) * S s i`.  That is the only use of the precondition; the labels and the mask enter
  through one entrywise function applied to equal margins, and the loss through one function of equal entry arrays.

  The three frames: the two kernels' are the generated frame certificates; the reference has no kernel, and its frame is
  its run with the results dropped.  The idealization rewrote nothing, so `preserves` is `True`.
-/
import proofs.«176089_j7017976562214_2_alg».proof.Defs
import proofs.«176089_j7017976562214_2_alg».proof.Proof.Gen.Kernel
import proofs.«176089_j7017976562214_2_alg».proof.Proof.Gen.Kernel.Frame
import proofs.«176089_j7017976562214_2_alg».proof.Proof.Gen.KernelIdeal
import proofs.«176089_j7017976562214_2_alg».proof.Proof.Gen.KernelIdeal.Frame
import proofs.«176089_j7017976562214_2_alg».proof.Proof.Gen.ReferenceIdeal
import proofs.«176089_j7017976562214_2_alg».proof.Proof.Gen.ReferenceIdeal.Run
import proofs.«176089_j7017976562214_2_alg».proof.Proof.Gen.ReferenceIdeal.Read
import proofs.«176089_j7017976562214_2_alg».proof.Proof.Gen.Pre_finite_inputs
import proofs.«176089_j7017976562214_2_alg».proof.Proof.Result
import proofs.«176089_j7017976562214_2_alg».proof.Proof.RefSpec
import proofs.«176089_j7017976562214_2_alg».proof.Proof.Finite
import proofs.«176089_j7017976562214_2_alg».proof.Proof.Tail
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is a straight line of host operations: its run, with what it says of the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the four arguments, both programs end with the loss at the host's mean-and-sum of the
    cross-entropy entries of the margins and the array result at the margins, as functions of the kernel's arguments:
    the kernel by its run read through the grid's invariant, the reference by its run read stage by stage. -/
theorem algebraic : Cert.algebraic_KernelIdeal_ReferenceIdeal := by
  intro m ρ m' ρ' hpre hagree
  have hreal := fun c : Dev Cert.KernelIdeal.nD => Cert.Finite.real_of_pre _ _ _ _ (hpre c)
  refine ⟨_, _, Cert.KernelIdeal.Result.run m ρ (fun c => (hreal c).1) (fun c => (hreal c).2), ?_⟩
  refine (θ_run Cert.ReferenceIdeal.defs _ _).mono (fun _ h c => ⟨?_, ?_, (h c).2.2⟩)
    (Cert.ReferenceIdeal.Value.run (F := Ideal) m' ρ')
  · refine (h c).1.trans ?_
    rw [(hagree c).1, (hagree c).2.1, (hagree c).2.2.1, (hagree c).2.2.2]
    exact (Cert.ReferenceIdeal.Read.val_main_v29_eq _ _ _ _).trans
      ((Cert.Tail.ref_loss _ _ _ _).trans
        (congrArg Cert.Tail.tail
          ((Cert.RefSpec.ref_bce _ _ _ _).trans
            (congrArg (fun P => Cert.Spec.bceArr P _ _) (Cert.RefSpec.ref_margin _ _)))))
  · refine (h c).2.1.trans ?_
    rw [(hagree c).1, (hagree c).2.1]
    exact (Cert.ReferenceIdeal.Read.val_main_v12_eq _ _).trans (Cert.RefSpec.ref_margin _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
